-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x1024x3 : Shape := ⟨3, ![1, 1024, 3]⟩
abbrev S1x3x1024 : Shape := ⟨3, ![1, 3, 1024]⟩
abbrev S1x1x8192 : Shape := ⟨3, ![1, 1, 8192]⟩
abbrev S1x8192 : Shape := ⟨2, ![1, 8192]⟩
abbrev S1024x1 : Shape := ⟨2, ![1024, 1]⟩
abbrev S1024x3 : Shape := ⟨2, ![1024, 3]⟩
abbrev S3x1024 : Shape := ⟨2, ![3, 1024]⟩
abbrev S1x1024 : Shape := ⟨2, ![1, 1024]⟩
abbrev S1024x1024 : Shape := ⟨2, ![1024, 1024]⟩
abbrev S1024 : Shape := ⟨1, ![1024]⟩
abbrev S8192 : Shape := ⟨1, ![8192]⟩
abbrev S4x8192 : Shape := ⟨2, ![4, 8192]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x8192, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | .local _ .vmem, ⟨9, _⟩ => ⟨S1x8192, .f32⟩
  | .local _ .vmem, ⟨10, _⟩ => ⟨S1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v40 : BitVec 32 := Scalar.muli arg2 c1024_i32
  v40
def k0_off1 (i : grid0.Coords) : Fin 2 → Nat :=
  let c0_14 : Index := 0#32
  let arg2 : BitVec 32 := BitVec.ofNat 32 (i 2).val
  let c1024_i32 : BitVec 32 := 1024#32
  let v40 : BitVec 32 := Scalar.muli arg2 c1024_i32
  let v41 : BitVec 32 := v40
  let v42 : Index := Scalar.indexCast v41
  ![0, v42.toNat]
def k0_cond3 (i : grid0.Coords) : BitVec 1 :=
  let arg2 : BitVec 32 := BitVec.ofNat 32 (i 2).val
  let c7_i32 : BitVec 32 := 7#32
  let v50 : BitVec 1 := Scalar.cmpi .eq arg2 c7_i32
  let v51 : BitVec 32 := Scalar.extui v50
  let c0_i32_16 : BitVec 32 := 0#32
  let v52 : BitVec 1 := Scalar.cmpi .ne v51 c0_i32_16
  v52

def k0_mult2 (i : grid0.Coords) : BitVec 32 :=
  let arg1 : BitVec 32 := BitVec.ofNat 32 (i 1).val
  let c1024_i32_20 : BitVec 32 := 1024#32
  let v58 : BitVec 32 := Scalar.muli arg1 c1024_i32_20
  v58
def k0_off2 (i : grid0.Coords) : Fin 2 → Nat :=
  let c0_23 : Index := 0#32
  let arg1 : BitVec 32 := BitVec.ofNat 32 (i 1).val
  let c1024_i32_20 : BitVec 32 := 1024#32
  let v58 : BitVec 32 := Scalar.muli arg1 c1024_i32_20
  let v59 : BitVec 32 := v58
  let v62 : Index := Scalar.indexCast v59
  ![0, v62.toNat]
def k0_cond4 (i : grid0.Coords) : BitVec 1 :=
  let arg1 : BitVec 32 := BitVec.ofNat 32 (i 1).val
  let c7_i32_17 : BitVec 32 := 7#32
  let v53 : BitVec 1 := Scalar.cmpi .eq arg1 c7_i32_17
  let arg2 : BitVec 32 := BitVec.ofNat 32 (i 2).val
  let c7_i32_18 : BitVec 32 := 7#32
  let v54 : BitVec 1 := Scalar.cmpi .eq arg2 c7_i32_18
  let v55 : BitVec 1 := Scalar.andi v53 v54
  let v56 : BitVec 32 := Scalar.extui v55
  let c0_i32_19 : BitVec 32 := 0#32
  let v57 : BitVec 1 := Scalar.cmpi .ne v56 c0_i32_19
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1024_S1024_2 : S1024x1024.Reduces [0] S1024
  h_S1x1024 : 0 < S1x1024.numel
  shapeCasts_S1x1024_S1024 : S1x1024.ShapeCasts S1024
  shapeCasts_S1024_S1x1024 : S1024.ShapeCasts S1x1024
  shapeCasts_S1024x1_S1024 : S1024x1.ShapeCasts S1024
  shapeCasts_S1x8192_S8192 : S1x8192.ShapeCasts S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  reducesTo_S4x8192_S_d0_1 : S4x8192.ReducesTo [0, 1] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  k0_mult2_dvd : ∀ i : grid0.Coords, ∀ (k0_h3 : k0_cond3 i = 1#1), 1024 ∣ (k0_mult2 i).toNat
  k0_off2_inb : ∀ i : grid0.Coords, ∀ (k0_h3 : k0_cond3 i = 1#1), ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S_S4x8192x8192 : S_.BroadcastsInDim S4x8192x8192 (![] : Fin 0 → Fin S4x8192x8192.rank)
  bcast_S4x8192x1_S4x8192x8192_0_1_2 : S4x8192x1.BroadcastsInDim S4x8192x8192 (![0, 1, 2] : Fin 3 → Fin S4x8192x8192.rank)
  transposes_S4x8192x1_S4x1x8192_0_2_1 : S4x8192x1.Transposes [0, 2, 1] S4x1x8192
  bcast_S4x1x8192_S4x8192x8192_0_1_2 : S4x1x8192.BroadcastsInDim S4x8192x8192 (![0, 1, 2] : Fin 3 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The Chamfer distance between two clouds of 8192 points of ℝ³ (four batches), as a function of the two argument
  arrays over the extended reals: the squared distance of a pair of points, its minimum over the second cloud for
  every point of the first (`D12`), its minimum over the first cloud for every point of the second (`D21`), and
  the scalar both programs end with — the mean of the one plus the mean of the other. Also the one fact about
  minima the tiled computation rests on: the minimum over the first `K + W` indices is the minimum of the minimum
  over the first `K` and the minimum over the next `W`.
-/
import Idealize.ShloMosaic.PureOps.Ideal
import Idealize.ShloMosaic.Lib.ValueIdx

noncomputable section

namespace Chamfer

open Idealize.ShloMosaic Idealize.ShloMosaic.ValueIdx

/-- The shape of a cloud: batch, point, coordinate. -/
abbrev SP : Shape := ⟨3, ![4, 8192, 3]⟩
/-- The shape of a per-point result: batch, point. -/
abbrev SD : Shape := ⟨2, ![4, 8192]⟩

/-- The squared distance of two points of ℝ³, the three squared differences added left to right. -/
def sqd (a b : Fin 3 → EReal) : EReal :=
  ((a 0 - b 0) * (a 0 - b 0) + (a 1 - b 1) * (a 1 - b 1)) + (a 2 - b 2) * (a 2 - b 2)

/-- Point `n` of batch `b` of a cloud. -/
def pt (p : SP.Idx → EReal) (b : Fin 4) (n : Fin 8192) : Fin 3 → EReal := fun d => p (ix3 b n d)

/-- The squared distance between point `n` of the first cloud and point `m` of the second, in batch `b`. -/
def dist (p1 p2 : SP.Idx → EReal) (b : Fin 4) (n m : Fin 8192) : EReal := sqd (pt p1 b n) (pt p2 b m)

/-- For every point of the first cloud, the least squared distance to a point of the second. -/
def D12 (p1 p2 : SP.Idx → EReal) : SD.Idx → EReal := fun i => ⨅ m : Fin 8192, dist p1 p2 (i 0) (i 1) m

/-- For every point of the second cloud, the least squared distance to a point of the first. -/
def D21 (p1 p2 : SP.Idx → EReal) : SD.Idx → EReal := fun i => ⨅ n : Fin 8192, dist p1 p2 (i 0) n (i 1)

/-! ## Minima over an initial segment of the indices -/

/-- The infimum of `f` over the indices below `K`. -/
def infBelow {N : Nat} (f : Fin N → EReal) (K : Nat) : EReal := ⨅ m : Fin N, ⨅ (_ : m.val < K), f m

theorem le_infBelow {N : Nat} (f : Fin N → EReal) (K : Nat) (z : EReal) :
    z ≤ infBelow f K ↔ ∀ m : Fin N, m.val < K → z ≤ f m := le_iInf₂_iff

/-- Over no index the infimum is `+∞`. -/
theorem infBelow_zero {N : Nat} (f : Fin N → EReal) : infBelow f 0 = ⊤ :=
  top_unique ((le_infBelow f 0 ⊤).mpr fun m h => absurd h (Nat.not_lt_zero _))

/-- Over every index it is the infimum. -/
theorem infBelow_full {N : Nat} (f : Fin N → EReal) (K : Nat) (h : N ≤ K) : infBelow f K = ⨅ m, f m :=
  eq_of_forall_le_iff fun z => by
    rw [le_infBelow, le_iInf_iff]
    exact ⟨fun H m => H m (lt_of_lt_of_le m.isLt h), fun H m _ => H m⟩

/-- One more tile: the infimum below `K + W` is the lesser of the infimum below `K` and the infimum over the
    `W` indices from `K` on. -/
theorem infBelow_step {N : Nat} (f : Fin N → EReal) (K W : Nat) (hKW : K + W ≤ N) :
    min (infBelow f K) (⨅ c : Fin W, f ⟨K + c.val, by have := c.isLt; omega⟩) = infBelow f (K + W) :=
  eq_of_forall_le_iff fun z => by
    rw [le_min_iff, le_infBelow, le_infBelow, le_iInf_iff]
    constructor
    · rintro ⟨h1, h2⟩ m hm
      by_cases hmK : m.val < K
      · exact h1 m hmK
      · have h3 := h2 ⟨m.val - K, by omega⟩
        have e : (⟨K + (m.val - K), by omega⟩ : Fin N) = m := Fin.ext (by show K + (m.val - K) = m.val; omega)
        rwa [e] at h3
    · intro H
      exact ⟨fun m hm => H m (by omega), fun c => H _ (by show K + c.val < K + W; have := c.isLt; omega)⟩

end Chamfer

end
-- ==== Proof.RefValue.lean ====
/-
  The reference computes, for every pair (n, m) of a batch, the expanded form |p|² − 2 p·q + |q|² of the squared
  distance of point n of the first cloud and point m of the second, clamped below at 0, and takes its minimum over m
  (for every n) and over n (for every m). For points with real coordinates the expanded form is the sum of the three
  squared differences, which is nonnegative, so the clamp does nothing and the two arrays of minima are the
  specification's `D12` and `D21`; the scalar the reference ends with is then the mean of the one plus the mean of
  the other, stated over `D12` and `D21`. Last, the precondition — every entry of both arrays has absolute value
  below +∞ — is what makes the coordinates real.
-/
import proofs.«104449_j73160472920067_2_alg».proof.Proof.Spec
import proofs.«104449_j73160472920067_2_alg».proof.Proof.Gen.ReferenceIdeal.Read
import proofs.«104449_j73160472920067_2_alg».proof.Pre_finite_inputs
import Idealize.ShloMosaic.Lib.ReduceAll

noncomputable section

namespace Chamfer.Ref

open Cert.ReferenceIdeal Cert.ReferenceIdeal.Gen Cert.ReferenceIdeal.Read Idealize.ShloMosaic Idealize.ShloMosaic.ValueIdx
  Idealize.ShloMosaic.StableHlo

/-! ## The algebra, for points of ℝ³ -/

/-- In ℝ the expanded form |a|² − 2 a·c + |c|² is the sum of the three squared differences. -/
theorem expand_real (a c : Fin 3 → ℝ) :
    ((a 0 * a 0 + a 1 * a 1 + a 2 * a 2) + (-2) * (a 0 * c 0 + a 1 * c 1 + a 2 * c 2)) + (c 0 * c 0 + c 1 * c 1 + c 2 * c 2)
      = ((a 0 - c 0) * (a 0 - c 0) + (a 1 - c 1) * (a 1 - c 1)) + (a 2 - c 2) * (a 2 - c 2) := by ring

/-- A sum of three squares is nonnegative. -/
theorem sq_nonneg_real (a c : Fin 3 → ℝ) :
    0 ≤ ((a 0 - c 0) * (a 0 - c 0) + (a 1 - c 1) * (a 1 - c 1)) + (a 2 - c 2) * (a 2 - c 2) :=
  add_nonneg (add_nonneg (mul_self_nonneg _) (mul_self_nonneg _)) (mul_self_nonneg _)

/-- The squared distance of two real points is the coercion of the real sum of squared differences. -/
theorem sqd_coe (a c : Fin 3 → ℝ) :
    sqd (fun k => (a k : EReal)) (fun k => (c k : EReal))
      = ((((a 0 - c 0) * (a 0 - c 0) + (a 1 - c 1) * (a 1 - c 1)) + (a 2 - c 2) * (a 2 - c 2) : ℝ) : EReal) := by
  unfold sqd
  simp only [← EReal.coe_sub, ← EReal.coe_mul, ← EReal.coe_add]

/-- The expanded form of two real points, clamped below at 0, is their squared distance: the expansion is an
    identity of ℝ, and the clamp meets a nonnegative number. -/
theorem expanded_coe (a c : Fin 3 → ℝ) :
    max ((((0 : EReal) + ∑ k : Fin 3, (a k : EReal) * (a k : EReal)) + ((-2 : ℝ) : EReal) * ∑ k : Fin 3, (a k : EReal) * (c k : EReal))
        + ((0 : EReal) + ∑ k : Fin 3, (c k : EReal) * (c k : EReal))) 0
      = sqd (fun k => (a k : EReal)) (fun k => (c k : EReal)) := by
  rw [sqd_coe, ← expand_real]
  simp only [Fin.sum_univ_three, zero_add, ← EReal.coe_mul, ← EReal.coe_add]
  refine max_eq_left (EReal.coe_nonneg.mpr ?_)
  rw [expand_real]; exact sq_nonneg_real a c

/-! ## The two literal words and the fold of a minimum -/

/-- The word 0x7F800000 is +∞. -/
theorem ofBits_top : Ideal.ofBits .f32 0x7F800000#32 = (⊤ : EReal) := by simp [Ideal.ofBits, Ideal.ieee]

/-- The word 0xC0000000 is −2: sign 1, exponent 128, significand 0, that is −2²³ · 2⁻²². -/
theorem ofBits_neg_two : Ideal.ofBits .f32 0xC0000000#32 = ((-2 : ℝ) : EReal) := by
  simp [Ideal.ofBits, Ideal.ieee]
  rw [← EReal.coe_mul]
  exact congrArg _ (by norm_num)

/-- The fold of `min` from +∞ over every index is the infimum. -/
theorem fold_min_top {ι : Type} [Fintype ι] (f : ι → EReal) :
    (Finset.univ : Finset ι).fold min ⊤ f = ⨅ k, f k :=
  eq_of_forall_le_iff fun z => by
    rw [Finset.le_fold_min, le_iInf_iff]
    exact ⟨fun H k => H.2 k (Finset.mem_univ k), fun H => ⟨le_top, fun k _ => H k⟩⟩

/-! ## The pairwise array at (b, n, m) -/

variable (x0 x1 : (⟨S4x8192x3, .f32⟩ : BufTy).Contents (Elt Ideal))

/-- |p|² spread along m: at (b, n, m) the sum of the squares of the coordinates of point n of the first cloud. -/
theorem v9_at (b : Fin 4) (n m : Fin 8192) :
    val_main_v9 (F := Ideal) x0 (ix3 b n m) = 0 + ∑ k : Fin 3, x0 (ix3 b n k) * x0 (ix3 b n k) := by
  rw [val_main_v9_apply, val_main_v2_apply, val_main_v1_apply, val_main_cst_apply, Ideal.ofBits_def, Ideal.ofBits_zero_f32]
  refine congrArg (0 + ·) (Finset.sum_congr rfl fun k _ => ?_)
  rw [val_main_v0_apply]
  have e : idx_main_v1 (idx_main_v2 (idx_main_v9 (ix3 b n m))) k = ix3 b n k :=
    funext fun a => Fin.ext (by match a with | ⟨0, _⟩ => rfl | ⟨1, _⟩ => rfl | ⟨2, _⟩ => rfl)
  rw [e]; rfl

/-- |q|² spread along n: at (b, n, m) the sum of the squares of the coordinates of point m of the second cloud. -/
theorem v12_at (b : Fin 4) (n m : Fin 8192) :
    val_main_v12 (F := Ideal) x1 (ix3 b n m) = 0 + ∑ k : Fin 3, x1 (ix3 b m k) * x1 (ix3 b m k) := by
  rw [val_main_v12_apply, val_main_v11_apply, val_main_v5_apply, val_main_v4_apply, val_main_cst_0_apply, Ideal.ofBits_def,
    Ideal.ofBits_zero_f32]
  refine congrArg (0 + ·) (Finset.sum_congr rfl fun k _ => ?_)
  rw [val_main_v3_apply]
  have e : idx_main_v4 (idx_main_v5 (idx_main_v11 (idx_main_v12 (ix3 b n m)))) k = ix3 b m k :=
    funext fun a => Fin.ext (by match a with | ⟨0, _⟩ => rfl | ⟨1, _⟩ => rfl | ⟨2, _⟩ => rfl)
  rw [e]; rfl

/-- −2 p·q at (b, n, m): the word of −2 times the sum over the coordinates of the products. -/
theorem v8_at (b : Fin 4) (n m : Fin 8192) :
    val_main_v8 (F := Ideal) x0 x1 (ix3 b n m)
      = Ideal.ofBits .f32 0xC0000000#32 * ∑ k : Fin 3, x0 (ix3 b n k) * x1 (ix3 b m k) := by
  rw [val_main_v8_apply, val_main_v7_apply, val_main_cst_1_apply, val_main_v6_apply, Ideal.ofBits_def]
  refine congrArg (Ideal.ofBits .f32 0xC0000000#32 * ·) (Finset.sum_congr rfl fun k _ => ?_)
  have el : lidx_main_v6 (ix3 b n m) k = ix3 b n k :=
    funext fun a => Fin.ext (by match a with | ⟨0, _⟩ => rfl | ⟨1, _⟩ => rfl | ⟨2, _⟩ => rfl)
  have er : ridx_main_v6 (ix3 b n m) k = ix3 b m k :=
    funext fun a => Fin.ext (by match a with | ⟨0, _⟩ => rfl | ⟨1, _⟩ => rfl | ⟨2, _⟩ => rfl)
  rw [el, er]

/-- The clamped expanded form at (b, n, m), in the coordinates of the two points. -/
theorem v15_at (b : Fin 4) (n m : Fin 8192) :
    val_main_v15 (F := Ideal) x0 x1 (ix3 b n m)
      = max (((0 + ∑ k : Fin 3, x0 (ix3 b n k) * x0 (ix3 b n k))
              + Ideal.ofBits .f32 0xC0000000#32 * ∑ k : Fin 3, x0 (ix3 b n k) * x1 (ix3 b m k))
            + (0 + ∑ k : Fin 3, x1 (ix3 b m k) * x1 (ix3 b m k))) 0 := by
  rw [val_main_v15_apply, val_main_v13_apply, val_main_v10_apply, v9_at, v8_at, v12_at, val_main_v14_apply,
    val_main_cst_2_apply, Ideal.ofBits_def, Ideal.ofBits_zero_f32]
  rfl

/-- For clouds of real points the pairwise array is the squared distance. -/
theorem v15_eq_dist (h0 : ∀ i, ∃ r : ℝ, x0 i = (r : EReal)) (h1 : ∀ i, ∃ r : ℝ, x1 i = (r : EReal))
    (b : Fin 4) (n m : Fin 8192) : val_main_v15 (F := Ideal) x0 x1 (ix3 b n m) = dist x0 x1 b n m := by
  rw [v15_at, ofBits_neg_two]
  choose r0 hr0 using h0
  choose r1 hr1 using h1
  have e := expanded_coe (fun k => r0 (ix3 b n k)) (fun k => r1 (ix3 b m k))
  simp only [← hr0, ← hr1] at e
  exact e

/-! ## The two minima -/

theorem red_d2 : S4x8192x8192.Reduces [2] S4x8192 := by decide
theorem red_d1 : S4x8192x8192.Reduces [1] S4x8192 := by decide

/-- Over (b, n), the index with m put back on the last axis is (b, n, m). -/
theorem lift_d2 (b : Fin 4) (n k : Fin 8192) : red_d2.lift (ix2 b n) k = ix3 b n k := by
  funext c; apply Fin.ext
  match c with
  | ⟨0, _⟩ => rfl
  | ⟨1, _⟩ => rfl
  | ⟨2, _⟩ => rfl

/-- Over (b, m), the index with n put back on the middle axis is (b, n, m). -/
theorem lift_d1 (b : Fin 4) (m k : Fin 8192) : red_d1.lift (ix2 b m) k = ix3 b k m := by
  funext c; apply Fin.ext
  match c with
  | ⟨0, _⟩ => rfl
  | ⟨1, _⟩ => rfl
  | ⟨2, _⟩ => rfl

/-- At (b, n) the reference's minimum along the last axis is the least squared distance from point n of the first
    cloud to a point of the second: the fold of `min` from +∞ over m of the pairwise array. -/
theorem ref_d12_at (h0 : ∀ i, ∃ r : ℝ, x0 i = (r : EReal)) (h1 : ∀ i, ∃ r : ℝ, x1 i = (r : EReal))
    (b : Fin 4) (n : Fin 8192) :
    val_main_v16 (F := Ideal) x0 x1 (ix2 b n) = ⨅ m : Fin 8192, dist x0 x1 b n m := by
  unfold val_main_v16
  rw [Host.reduce_eq_fold_single FloatOps.minimumf _ _ reducesTo_S4x8192x8192_S4x8192_d2 red_d2 h_S_]
  have hf : (val_main_v15 (F := Ideal) x0 x1 ∘ red_d2.lift (ix2 b n)) = fun m : Fin 8192 => dist x0 x1 b n m :=
    funext fun m =>
      (congrArg (val_main_v15 (F := Ideal) x0 x1) (lift_d2 b n m)).trans (v15_eq_dist x0 x1 h0 h1 b n m)
  refine (congrArg (fun f => Finset.fold min (Ideal.ofBits .f32 0x7F800000#32) f (Finset.univ : Finset (Fin 8192))) hf).trans ?_
  show Finset.fold min (Ideal.ofBits .f32 0x7F800000#32) (fun m : Fin 8192 => dist x0 x1 b n m) Finset.univ = _
  rw [ofBits_top, fold_min_top]

/-- At (b, m) the reference's minimum along the middle axis is the least squared distance from point m of the second
    cloud to a point of the first. -/
theorem ref_d21_at (h0 : ∀ i, ∃ r : ℝ, x0 i = (r : EReal)) (h1 : ∀ i, ∃ r : ℝ, x1 i = (r : EReal))
    (b : Fin 4) (m : Fin 8192) :
    val_main_v17 (F := Ideal) x0 x1 (ix2 b m) = ⨅ n : Fin 8192, dist x0 x1 b n m := by
  unfold val_main_v17
  rw [Host.reduce_eq_fold_single FloatOps.minimumf _ _ reducesTo_S4x8192x8192_S4x8192_d1 red_d1 h_S_]
  have hf : (val_main_v15 (F := Ideal) x0 x1 ∘ red_d1.lift (ix2 b m)) = fun n : Fin 8192 => dist x0 x1 b n m :=
    funext fun n =>
      (congrArg (val_main_v15 (F := Ideal) x0 x1) (lift_d1 b m n)).trans (v15_eq_dist x0 x1 h0 h1 b n m)
  refine (congrArg (fun f => Finset.fold min (Ideal.ofBits .f32 0x7F800000#32) f (Finset.univ : Finset (Fin 8192))) hf).trans ?_
  show Finset.fold min (Ideal.ofBits .f32 0x7F800000#32) (fun n : Fin 8192 => dist x0 x1 b n m) Finset.univ = _
  rw [ofBits_top, fold_min_top]

/-- The reference's minimum over the second cloud is `D12`. -/
theorem ref_d12 (h0 : ∀ i, ∃ r : ℝ, x0 i = (r : EReal)) (h1 : ∀ i, ∃ r : ℝ, x1 i = (r : EReal)) :
    val_main_v16 (F := Ideal) x0 x1 = D12 x0 x1 := by
  funext j
  obtain ⟨b, n, rfl⟩ : ∃ (b : Fin 4) (n : Fin 8192), j = ix2 b n := ⟨j 0, j 1, eq_ix2 j⟩
  exact ref_d12_at x0 x1 h0 h1 b n

/-- The reference's minimum over the first cloud is `D21`. -/
theorem ref_d21 (h0 : ∀ i, ∃ r : ℝ, x0 i = (r : EReal)) (h1 : ∀ i, ∃ r : ℝ, x1 i = (r : EReal)) :
    val_main_v17 (F := Ideal) x0 x1 = D21 x0 x1 := by
  funext j
  obtain ⟨b, m, rfl⟩ : ∃ (b : Fin 4) (m : Fin 8192), j = ix2 b m := ⟨j 0, j 1, eq_ix2 j⟩
  exact ref_d21_at x0 x1 h0 h1 b m

/-! ## The scalar -/

/-- The reference's result: the sum of `D12` over every (b, n) divided by 32768, plus the same of `D21`. -/
theorem ref_result (h0 : ∀ i, ∃ r : ℝ, x0 i = (r : EReal)) (h1 : ∀ i, ∃ r : ℝ, x1 i = (r : EReal)) :
    val_main_v22 (F := Ideal) x0 x1
      = addf
          (Host.divf (F := Ideal)
            (Host.reduceAdd (F := Ideal) (D12 x0 x1) (constant (F := Ideal) S_ .f32 0x00000000#32) reducesTo_S4x8192_S_d0_1 h_S_)
            (constant (F := Ideal) S_ .f32 0x47000000#32))
          (Host.divf (F := Ideal)
            (Host.reduceAdd (F := Ideal) (D21 x0 x1) (constant (F := Ideal) S_ .f32 0x00000000#32) reducesTo_S4x8192_S_d0_1 h_S_)
            (constant (F := Ideal) S_ .f32 0x47000000#32)) := by
  rw [← ref_d12 x0 x1 h0 h1, ← ref_d21 x0 x1 h0 h1]
  rfl

/-! ## The precondition makes the coordinates real -/

/-- An extended real whose absolute value max(x, −x) is below +∞ is a real: at −∞ the negation is +∞, at +∞ the
    number itself is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

section Finite

variable [Cert.Pre_finite_inputs.Facts]

/-- One conjunction over every index of |x| < +∞ that holds makes every entry of `x` a real. -/
theorem finite_of_all (x : (⟨S4x8192x3, .f32⟩ : BufTy).Contents (Elt Ideal))
    (h : Host.reduce IntOp.andi
        (cmpf .olt (Host.absf (F := Ideal) x)
          (broadcastInDim Cert.Pre_finite_inputs.S4x8192x3 ![] Cert.Pre_finite_inputs.Facts.bcast_S_S4x8192x3
            (constant (F := Ideal) Cert.Pre_finite_inputs.S_ .f32 0x7F800000#32)))
        (constantI Cert.Pre_finite_inputs.S_ 1 1#1) Cert.Pre_finite_inputs.Facts.reducesTo_S4x8192x3_S_d0_1_2
        Cert.Pre_finite_inputs.Facts.h_S_ ix0 = 1#1) (i : S4x8192x3.Idx) :
    ∃ r : ℝ, x i = (r : EReal) := by
  have hi := Host.reduce_andi_eq_one _ _ _ _ _ h i (funext fun d => d.elim0)
  rw [cmpf_apply, broadcastInDim_apply _ Cert.Pre_finite_inputs.Facts.bcast_S_S4x8192x3 _ i (fun a => a.elim0)
    (fun a => a.elim0)] at hi
  refine real_of_abs_lt_top (x i) ?_
  have hlt : max (x i) (-(x i)) < Ideal.ofBits .f32 0x7F800000#32 := by
    by_contra hn
    have : Ideal.cmp .olt (max (x i) (-(x i))) (Ideal.ofBits .f32 0x7F800000#32) = 0#1 := by
      simp only [Ideal.cmp, decide_eq_false hn]; rfl
    exact absurd (hi.symm.trans this) (by decide)
  rwa [ofBits_top] at hlt

/-- The precondition — the conjunction, over both arrays, of |x| < +∞ at every entry — makes both arrays real. -/
theorem finite_of_pre (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ix0
  dsimp only [Cert.Pre_finite_inputs.fn] at h'
  obtain ⟨ha, hb⟩ := IntOp.andi_eq_one.1 h'
  exact ⟨finite_of_all x0 ha, finite_of_all x1 hb⟩

end Finite

end Chamfer.Ref

end
-- ==== Proof.KScan.lean ====
/-
  The arithmetic of a sweep over 256 grid points n = 64·b + 8·ni + mi — four batches b, in each eight row tiles ni
  of 1024 rows, in each eight column tiles mi of 1024 columns — that keeps three running minima of a table
  d b p q of extended reals. `S2` (one row tile) takes, at every point, the minimum of its value at the point before
  (+∞ at the first column tile) and the least entry of each of its rows in the current column tile: after column tile
  mi it holds each row's least entry among the columns below (mi + 1)·1024. `S1` (every column) takes, in the columns
  of the current column tile, the minimum with the least entry of the column in the current row tile (+∞ at the first
  point of a batch): it holds each column's least entry among the rows below ni·1024, or (ni + 1)·1024 for the
  columns the current row tile has already met. `S0` (every row) copies `S2` when a row tile is complete. At the last
  point of a batch `S0` is every row's least entry and `S1` every column's.
-/
import proofs.«104449_j73160472920067_2_alg».proof.Proof.Spec

noncomputable section

namespace Chamfer.Scan

open Chamfer

/-! ## The table at natural-number arguments -/

/-- The table read at natural numbers: `d` inside the grid, +∞ outside. -/
def ext (d : Fin 4 → Fin 8192 → Fin 8192 → EReal) (b p q : ℕ) : EReal :=
  if h : b < 4 ∧ p < 8192 ∧ q < 8192 then d ⟨b, h.1⟩ ⟨p, h.2.1⟩ ⟨q, h.2.2⟩ else ⊤

theorem ext_val (d : Fin 4 → Fin 8192 → Fin 8192 → EReal) (b : Fin 4) (p q : Fin 8192) :
    d b p q = ext d b.val p.val q.val := by
  unfold ext; rw [dif_pos ⟨b.isLt, p.isLt, q.isLt⟩]

/-! ## The sweep, for a table of natural-number arguments -/

section Nat

variable (D : ℕ → ℕ → ℕ → EReal) (S2 : ℕ → Fin 1024 → EReal) (S1 S0 : ℕ → Fin 8192 → EReal)

/-- After column tile n % 8 of its row tile, `S2` holds every row's least entry among the columns below
    (n % 8 + 1)·1024: one more tile of 1024 columns at every point, from +∞ at the first. -/
theorem inv2
    (hE2 : ∀ (n : ℕ), n < 256 → ∀ r : Fin 1024, S2 n r = min (if n % 8 = 0 then ⊤ else S2 (n - 1) r)
      (⨅ cc : Fin 1024, D (n / 64) ((n / 8) % 8 * 1024 + r.val) (n % 8 * 1024 + cc.val))) :
    ∀ (n : ℕ), n < 256 → ∀ r : Fin 1024,
      S2 n r = infBelow (fun q : Fin 8192 => D (n / 64) ((n / 8) % 8 * 1024 + r.val) q.val) ((n % 8 + 1) * 1024) := by
  intro n
  induction n using Nat.strong_induction_on with
  | _ n ih =>
    intro hn r
    have hbase : (if n % 8 = 0 then (⊤ : EReal) else S2 (n - 1) r)
        = infBelow (fun q : Fin 8192 => D (n / 64) ((n / 8) % 8 * 1024 + r.val) q.val) (n % 8 * 1024) := by
      by_cases h0 : n % 8 = 0
      · rw [if_pos h0, h0, Nat.zero_mul, infBelow_zero]
      · rw [if_neg h0, ih (n - 1) (by omega) (by omega) r]
        have e1 : (n - 1) / 64 = n / 64 := by omega
        have e2 : ((n - 1) / 8) % 8 = (n / 8) % 8 := by omega
        have e3 : (n - 1) % 8 + 1 = n % 8 := by omega
        rw [e1, e2, e3]
    rw [hE2 n hn r, hbase, show (n % 8 + 1) * 1024 = n % 8 * 1024 + 1024 by omega]
    exact infBelow_step (fun q : Fin 8192 => D (n / 64) ((n / 8) % 8 * 1024 + r.val) q.val) (n % 8 * 1024) 1024 (by omega)

/-- `S1` holds every column's least entry among the rows of the batch below (n / 8) % 8 · 1024, and one row tile
    more for the columns whose column tile the current row tile has reached. -/
theorem inv1
    (hE1 : ∀ (n : ℕ), n < 256 → ∀ q : Fin 8192, S1 n q = if q.val / 1024 = n % 8
      then min (if n % 64 = 0 then ⊤ else S1 (n - 1) q) (⨅ r : Fin 1024, D (n / 64) ((n / 8) % 8 * 1024 + r.val) q.val)
      else (if n % 64 = 0 then ⊤ else S1 (n - 1) q)) :
    ∀ (n : ℕ), n < 256 → ∀ q : Fin 8192,
      S1 n q = infBelow (fun p : Fin 8192 => D (n / 64) p.val q.val)
        (((n / 8) % 8 + (if q.val / 1024 ≤ n % 8 then 1 else 0)) * 1024) := by
  intro n
  induction n using Nat.strong_induction_on with
  | _ n ih =>
    intro hn q
    have hq : q.val / 1024 < 8 := by have := q.isLt; omega
    -- the value at the point before: the row tiles below, and the current one for the column tiles already passed
    have hbase : (if n % 64 = 0 then (⊤ : EReal) else S1 (n - 1) q)
        = infBelow (fun p : Fin 8192 => D (n / 64) p.val q.val)
            (((n / 8) % 8 + (if q.val / 1024 < n % 8 then 1 else 0)) * 1024) := by
      by_cases h0 : n % 64 = 0
      · have hz : ((n / 8) % 8 + (if q.val / 1024 < n % 8 then 1 else 0)) * 1024 = 0 := by
          split_ifs <;> omega
        rw [if_pos h0, hz, infBelow_zero]
      · rw [if_neg h0, ih (n - 1) (by omega) (by omega) q]
        have e1 : (n - 1) / 64 = n / 64 := by omega
        rw [e1]
        exact congrArg (infBelow fun p : Fin 8192 => D (n / 64) p.val q.val) (by split_ifs <;> omega)
    rw [hE1 n hn q, hbase]
    by_cases hqm : q.val / 1024 = n % 8
    · rw [if_pos hqm,
        show ((n / 8) % 8 + (if q.val / 1024 < n % 8 then 1 else 0)) * 1024 = (n / 8) % 8 * 1024 by
          split_ifs <;> omega,
        show ((n / 8) % 8 + (if q.val / 1024 ≤ n % 8 then 1 else 0)) * 1024 = (n / 8) % 8 * 1024 + 1024 by
          split_ifs <;> omega]
      exact infBelow_step (fun p : Fin 8192 => D (n / 64) p.val q.val) ((n / 8) % 8 * 1024) 1024 (by omega)
    · rw [if_neg hqm]
      exact congrArg (infBelow fun p : Fin 8192 => D (n / 64) p.val q.val) (by split_ifs <;> omega)

/-- `S0` holds the least entry of every row of the row tiles already complete: those below (n / 8) % 8, and the
    current one at its last column tile, where it is `S2` over all 8192 columns. -/
theorem inv0
    (hE2 : ∀ (n : ℕ), n < 256 → ∀ r : Fin 1024, S2 n r = min (if n % 8 = 0 then ⊤ else S2 (n - 1) r)
      (⨅ cc : Fin 1024, D (n / 64) ((n / 8) % 8 * 1024 + r.val) (n % 8 * 1024 + cc.val)))
    (hE0 : ∀ (n : ℕ), n < 256 → ∀ p : Fin 8192, S0 n p = if n % 64 = 0 then ⊤ else
      if n % 8 = 7 ∧ p.val / 1024 = (n / 8) % 8 then S2 n ⟨p.val % 1024, Nat.mod_lt _ (by norm_num)⟩ else S0 (n - 1) p) :
    ∀ (n : ℕ), n < 256 → ∀ p : Fin 8192, p.val < ((n / 8) % 8 + (if n % 8 = 7 then 1 else 0)) * 1024 →
      S0 n p = ⨅ q : Fin 8192, D (n / 64) p.val q.val := by
  intro n
  induction n using Nat.strong_induction_on with
  | _ n ih =>
    intro hn p hp
    rw [hE0 n hn p]
    by_cases h0 : n % 64 = 0
    · exfalso; split_ifs at hp <;> omega
    · rw [if_neg h0]
      by_cases hc : n % 8 = 7 ∧ p.val / 1024 = (n / 8) % 8
      · rw [if_pos hc, inv2 D S2 hE2 n hn ⟨p.val % 1024, Nat.mod_lt _ (by norm_num)⟩]
        have e : (n / 8) % 8 * 1024 + p.val % 1024 = p.val := by omega
        show infBelow (fun q : Fin 8192 => D (n / 64) ((n / 8) % 8 * 1024 + p.val % 1024) q.val) ((n % 8 + 1) * 1024) = _
        rw [e]
        exact infBelow_full _ _ (by omega)
      · rw [if_neg hc, ih (n - 1) (by omega) (by omega) p (by split_ifs at hp ⊢ <;> omega)]
        have e1 : (n - 1) / 64 = n / 64 := by omega
        rw [e1]

/-- At the last point of a batch both minima are complete. -/
theorem scan_nat
    (hE2 : ∀ (n : ℕ), n < 256 → ∀ r : Fin 1024, S2 n r = min (if n % 8 = 0 then ⊤ else S2 (n - 1) r)
      (⨅ cc : Fin 1024, D (n / 64) ((n / 8) % 8 * 1024 + r.val) (n % 8 * 1024 + cc.val)))
    (hE1 : ∀ (n : ℕ), n < 256 → ∀ q : Fin 8192, S1 n q = if q.val / 1024 = n % 8
      then min (if n % 64 = 0 then ⊤ else S1 (n - 1) q) (⨅ r : Fin 1024, D (n / 64) ((n / 8) % 8 * 1024 + r.val) q.val)
      else (if n % 64 = 0 then ⊤ else S1 (n - 1) q))
    (hE0 : ∀ (n : ℕ), n < 256 → ∀ p : Fin 8192, S0 n p = if n % 64 = 0 then ⊤ else
      if n % 8 = 7 ∧ p.val / 1024 = (n / 8) % 8 then S2 n ⟨p.val % 1024, Nat.mod_lt _ (by norm_num)⟩ else S0 (n - 1) p)
    (n : ℕ) (hn : n < 256) (h63 : n % 64 = 63) :
    (∀ p : Fin 8192, S0 n p = ⨅ q : Fin 8192, D (n / 64) p.val q.val)
      ∧ (∀ q : Fin 8192, S1 n q = ⨅ p : Fin 8192, D (n / 64) p.val q.val) := by
  refine ⟨fun p => inv0 D S2 S0 hE2 hE0 n hn p ?_, fun q => ?_⟩
  · have := p.isLt; split_ifs <;> omega
  · rw [inv1 D S1 hE1 n hn q]
    exact infBelow_full _ _ (by have := q.isLt; split_ifs <;> omega)

end Nat

/-! ## The sweep over the table itself -/

theorem scan (d : Fin 4 → Fin 8192 → Fin 8192 → EReal) (S2 : ℕ → Fin 1024 → EReal) (S1 S0 : ℕ → Fin 8192 → EReal)
    (hE2 : ∀ (n : ℕ) (hn : n < 256) (r : Fin 1024), S2 n r = min (if n % 8 = 0 then ⊤ else S2 (n - 1) r)
      (⨅ cc : Fin 1024, d ⟨n / 64, by omega⟩ ⟨(n / 8) % 8 * 1024 + r.val, by have := r.isLt; omega⟩
        ⟨n % 8 * 1024 + cc.val, by have := cc.isLt; omega⟩))
    (hE1 : ∀ (n : ℕ) (hn : n < 256) (q : Fin 8192), S1 n q = if q.val / 1024 = n % 8
      then min (if n % 64 = 0 then ⊤ else S1 (n - 1) q)
        (⨅ r : Fin 1024, d ⟨n / 64, by omega⟩ ⟨(n / 8) % 8 * 1024 + r.val, by have := r.isLt; omega⟩ q)
      else (if n % 64 = 0 then ⊤ else S1 (n - 1) q))
    (hE0 : ∀ (n : ℕ) (hn : n < 256) (p : Fin 8192), S0 n p = if n % 64 = 0 then ⊤ else
      if n % 8 = 7 ∧ p.val / 1024 = (n / 8) % 8 then S2 n ⟨p.val % 1024, Nat.mod_lt _ (by norm_num)⟩ else S0 (n - 1) p) :
    ∀ (n : ℕ) (hn : n < 256), n % 64 = 63 →
      (∀ p : Fin 8192, S0 n p = ⨅ q : Fin 8192, d ⟨n / 64, by omega⟩ p q)
        ∧ (∀ q : Fin 8192, S1 n q = ⨅ p : Fin 8192, d ⟨n / 64, by omega⟩ p q) := by
  intro n hn h63
  have H := scan_nat (ext d) S2 S1 S0
    (fun n hn r => (hE2 n hn r).trans (congrArg (min _) (iInf_congr fun cc => ext_val d _ _ _)))
    (fun n hn q => (hE1 n hn q).trans (by rw [iInf_congr fun r : Fin 1024 =>
      ext_val d ⟨n / 64, by omega⟩ ⟨(n / 8) % 8 * 1024 + r.val, by have := r.isLt; omega⟩ q]))
    (fun n hn p => hE0 n hn p) n hn h63
  exact ⟨fun p => (H.1 p).trans (iInf_congr fun q => (ext_val d ⟨n / 64, by omega⟩ p q).symm),
    fun q => (H.2 q).trans (iInf_congr fun p => (ext_val d ⟨n / 64, by omega⟩ p q).symm)⟩

end Chamfer.Scan

end
-- ==== Proof.KPay.lean ====
/-
  The values the kernel body stores, read one element at a time over the extended reals. At one grid point the body
  holds a tile of 1024 points of the first cloud (coordinates last) and a tile of 1024 points of the second cloud
  (coordinates first). From them it forms the 1024 × 1024 table of squared distances between the two tiles, takes the
  least entry of every column and of every row, and folds the row minima into a running column of minima; the other
  stored values are re-shapings of vectors and the constant +∞. Each statement below names one stored value at an index
  written by its coordinates.
-/
import proofs.«104449_j73160472920067_2_alg».proof.Proof.Spec
import proofs.«104449_j73160472920067_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Chamfer.KPay

open Idealize.ShloMosaic Idealize.ShloMosaic.ValueIdx
open Cert.KernelIdeal Cert.KernelIdeal.Gen

/-! ## The word of +∞ -/

/-- The single-precision word with all exponent bits set and no fraction bit is +∞. -/
theorem ofBits_inf : Ideal.ofBits .f32 0x7F800000#32 = ⊤ := by simp [Ideal.ofBits, Ideal.ieee]

/-! ## Re-shapings and constants -/

/-- A cast of a column to its own shape changes nothing. -/
theorem pay1_eq (v : FVec Ideal S1024x1 .f32) : k0_pay1 (F := Ideal) v = v := shapeCast_self v _

/-- The first row of running minima starts at +∞ everywhere. -/
theorem pay6_apply (y : S1x8192.Idx) : k0_pay6 (F := Ideal) y = ⊤ := by
  unfold k0_pay6
  rw [shapeCast_self]
  exact ofBits_inf

/-- The second row of running minima starts at +∞ everywhere. -/
theorem pay7_apply (y : S1x8192.Idx) : k0_pay7 (F := Ideal) y = ⊤ := by
  unfold k0_pay7
  rw [shapeCast_self]
  exact ofBits_inf

/-- The running column of minima starts at +∞ everywhere. -/
theorem pay8_apply (y : S1024x1.Idx) : k0_pay8 (F := Ideal) y = ⊤ := by
  unfold k0_pay8
  rw [shapeCast_self]
  exact ofBits_inf

/-! ## Casts between a vector, a one-row matrix, a one-column matrix and a one-row, one-plane array -/

section Casts
variable {α : Type}

/-- An `[a, 1]` column cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector cast to `[1, 1, a]` reads, at `(u, w, i)`, the vector at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Casts

/-- The running row of column minima, updated: the stored row at `c` is the lesser of the row read and the tile's
    column minimum. -/
theorem pay2_apply (v34 : FVec Ideal S1024 .f32) (v43 : Vec Ideal S1x1024 .f32) (c : Fin 1024) :
    k0_pay2 (F := Ideal) v34 v43 (ix2 (0 : Fin 1) c) = min (v43 (ix2 (0 : Fin 1) c)) (v34 (ix1 c)) := by
  unfold k0_pay2
  refine (shapeCast_a_1a_apply _ _ (0 : Fin 1) c).trans ?_
  exact congrArg (fun z => min z (v34 (ix1 c))) (shapeCast_1a_a_apply v43 _ c)

/-- The running column of row minima laid out as a row. -/
theorem pay3_apply (v60 : Vec Ideal S1024x1 .f32) (r : Fin 1024) :
    k0_pay3 (F := Ideal) v60 (ix2 (0 : Fin 1) r) = v60 (ix2 r (0 : Fin 1)) := by
  unfold k0_pay3
  refine (shapeCast_a_1a_apply _ _ (0 : Fin 1) r).trans ?_
  exact shapeCast_a1_a_apply v60 _ r

/-- A full row of minima stored as a one-row, one-plane block. -/
theorem pay4_apply (v58 : Vec Ideal S1x8192 .f32) (n : Fin 8192) :
    k0_pay4 (F := Ideal) v58 (ix3 (0 : Fin 1) (0 : Fin 1) n) = v58 (ix2 (0 : Fin 1) n) := by
  unfold k0_pay4
  refine (shapeCast_a_11a_apply _ _ (0 : Fin 1) (0 : Fin 1) n).trans ?_
  exact shapeCast_1a_a_apply v58 _ n

/-- The other full row of minima stored likewise. -/
theorem pay5_apply (v63 : Vec Ideal S1x8192 .f32) (n : Fin 8192) :
    k0_pay5 (F := Ideal) v63 (ix3 (0 : Fin 1) (0 : Fin 1) n) = v63 (ix2 (0 : Fin 1) n) := by
  unfold k0_pay5
  refine (shapeCast_a_11a_apply _ _ (0 : Fin 1) (0 : Fin 1) n).trans ?_
  exact shapeCast_1a_a_apply v63 _ n

/-! ## The table of squared distances -/

/-- Coordinate `d` of point `r` of the first tile, as the table's row operand reads it at `(r, c)`: the tile without its
    unit axis, its column `d`, repeated along every row. -/
theorem rowCoord_apply (x0 : Vec Ideal S1x1024x3 .f32) (o : Nat) (hc : S1x1024x3.ShapeCasts S1024x3)
    (hs : S1024x3.Slices ![0, o] S1024x1) (hb : S1024x1.Broadcasts S1024x1024) (d : Fin 3) (hd : d.val = o)
    (r c : Fin 1024) :
    broadcastTo S1024x1024 (extractStridedSlice S1024x1 ![0, o] (shapeCast S1024x3 x0 hc) hs) hb (ix2 r c)
      = x0 (ix3 (0 : Fin 1) r d) := by
  refine (broadcastTo_a1_ab_apply _ hb r c).trans ?_
  refine (slice2_axis1_apply o _ hs r (0 : Fin 1) d (hd.trans (Nat.add_zero o).symm)).trans ?_
  exact shapeCast_1ab_ab_apply x0 hc r d

/-- Coordinate `d` of point `c` of the second tile, as the table's column operand reads it at `(r, c)`: the tile
    without its unit axis, its row `d`, repeated down every column. -/
theorem colCoord_apply (x1 : Vec Ideal S1x3x1024 .f32) (o : Nat) (hc : S1x3x1024.ShapeCasts S3x1024)
    (hs : S3x1024.Slices ![o, 0] S1x1024) (hb : S1x1024.Broadcasts S1024x1024) (d : Fin 3) (hd : d.val = o)
    (r c : Fin 1024) :
    broadcastTo S1024x1024 (extractStridedSlice S1x1024 ![o, 0] (shapeCast S3x1024 x1 hc) hs) hb (ix2 r c)
      = x1 (ix3 (0 : Fin 1) d c) := by
  refine (broadcastTo_1b_ab_apply _ hb r c).trans ?_
  refine (slice2_axis0_apply o _ hs (0 : Fin 1) c d (hd.trans (Nat.add_zero o).symm)).trans ?_
  exact shapeCast_1ab_ab_apply x1 hc d c

/-- The table's entry at `(r, c)` is the squared distance between point `r` of the first tile and point `c` of the
    second. -/
theorem pay9_apply (x0 : Vec Ideal S1x1024x3 .f32) (x1 : Vec Ideal S1x3x1024 .f32) (r c : Fin 1024) :
    k0_pay9 (F := Ideal) x0 x1 (ix2 r c)
      = Chamfer.sqd (fun d => x0 (ix3 (0 : Fin 1) r d)) (fun d => x1 (ix3 (0 : Fin 1) d c)) := by
  unfold k0_pay9 Chamfer.sqd
  simp only [addf_apply, mulf_apply, subf_apply]
  rw [rowCoord_apply x0 0 _ _ _ 0 rfl r c, rowCoord_apply x0 1 _ _ _ 1 rfl r c, rowCoord_apply x0 2 _ _ _ 2 rfl r c,
    colCoord_apply x1 0 _ _ _ 0 rfl r c, colCoord_apply x1 1 _ _ _ 1 rfl r c, colCoord_apply x1 2 _ _ _ 2 rfl r c]

/-! ## A minimum over one axis, from +∞ -/

/-- Folding `min` from +∞ over every index is the infimum. -/
theorem fold_min_top {ι : Type} [Fintype ι] (f : ι → EReal) : (Finset.univ : Finset ι).fold min ⊤ f = ⨅ k, f k :=
  eq_of_forall_le_iff fun z => by
    rw [Finset.le_fold_min, le_iInf_iff]
    exact ⟨fun H k => H.2 k (Finset.mem_univ k), fun H => ⟨le_top, fun k _ => H k⟩⟩

/-- A minimum reduction over one axis whose accumulator is the word of +∞ is, at each kept index, the infimum of the
    source over that axis's coordinates. -/
theorem multiReduction_min_inf {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [ofBits_inf]
  exact fold_min_top _

/-- Over the rows of a square table: the index above column `c` with row `r` put back is `(r, c)`. -/
theorem lift_rows (h : S1024x1024.Reduces [0] S1024) (c r : Fin 1024) : h.lift (ix1 c) r = ix2 r c := by
  funext d
  match d with
  | ⟨0, _⟩ => exact Fin.ext rfl
  | ⟨1, _⟩ => exact Fin.ext rfl

/-- Over the columns: the index above row `r` with column `c` put back is `(r, c)`. -/
theorem lift_cols (h : S1024x1024.Reduces [1] S1024) (r c : Fin 1024) : h.lift (ix1 r) c = ix2 r c := by
  funext d
  match d with
  | ⟨0, _⟩ => exact Fin.ext rfl
  | ⟨1, _⟩ => exact Fin.ext rfl

/-- The tile's column minima: at column `c`, the least entry of the table of squared distances over the rows. -/
theorem pay10_apply (x0 : Vec Ideal S1x1024x3 .f32) (x1 : Vec Ideal S1x3x1024 .f32) (c : Fin 1024) :
    k0_pay10 (F := Ideal) x0 x1 (ix1 c) = ⨅ r : Fin 1024, k0_pay9 (F := Ideal) x0 x1 (ix2 r c) := by
  unfold k0_pay10
  refine (multiReduction_min_inf (k0_pay9 (F := Ideal) x0 x1) _ _ _ (ix1 c)).trans ?_
  exact iInf_congr fun r => congrArg (k0_pay9 (F := Ideal) x0 x1) (lift_rows _ c r)

/-- The running column of row minima, updated: at row `r`, the lesser of the column read and the least entry of the
    table of squared distances over the columns. -/
theorem pay11_apply (x0 : Vec Ideal S1x1024x3 .f32) (x1 : Vec Ideal S1x3x1024 .f32) (v35 : Vec Ideal S1024x1 .f32)
    (r : Fin 1024) :
    k0_pay11 (F := Ideal) x0 x1 v35 (ix2 r (0 : Fin 1))
      = min (v35 (ix2 r (0 : Fin 1))) (⨅ c : Fin 1024, k0_pay9 (F := Ideal) x0 x1 (ix2 r c)) := by
  unfold k0_pay11
  refine congrArg (fun z => min (v35 (ix2 r (0 : Fin 1))) z) ?_
  refine (shapeCast_a_a1_apply _ _ r (0 : Fin 1)).trans ?_
  refine (multiReduction_min_inf (k0_pay9 (F := Ideal) x0 x1) _ _ _ (ix1 r)).trans ?_
  exact iInf_congr fun c => congrArg (k0_pay9 (F := Ideal) x0 x1) (lift_cols _ r c)

end Chamfer.KPay

end
-- ==== Proof.KCases.lean ====
/-
  What one run of the kernel body leaves in its three scratch buffers and its two output blocks, as functions of what
  the buffers held before and of the two input tiles — one statement per buffer and per control case of the body
  (first point of a batch; first column tile of a later row tile; a middle column tile; the last column tile; the last
  point of a batch). A buffer the body overwrites whole holds the stored value; a buffer it overwrites on one tile of
  1024 columns holds the stored value there and its old contents elsewhere. The stored values are the body's own named
  terms; what they are as numbers is a separate module.
-/
import proofs.«104449_j73160472920067_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

namespace Chamfer.KCases

open Idealize.ShloMosaic Idealize.ShloMosaic.TcCoe Idealize.SL.Sem Idealize.ShloMosaic.Tactic
open Cert.KernelIdeal Cert.KernelIdeal.Gen

variable {F : FTy → Type} [FloatOps F]
variable (c : Dev nD) (i : grid0.Coords)
  (arg3 : Memref sig .tc .vmem S1x1024x3 .f32) (harg3 : arg3.IsWhole)
  (arg4 : Memref sig .tc .vmem S1x3x1024 .f32) (harg4 : arg4.IsWhole)
  (arg5 : Memref sig .tc .vmem S1x1x8192 .f32) (harg5 : arg5.IsWhole)
  (arg6 : Memref sig .tc .vmem S1x1x8192 .f32) (harg6 : arg6.IsWhole)
  (arg7 : Memref sig .tc .vmem S1x8192 .f32) (harg7 : arg7.IsWhole)
  (arg8 : Memref sig .tc .vmem S1x8192 .f32) (harg8 : arg8.IsWhole)
  (arg9 : Memref sig .tc .vmem S1024x1 .f32) (harg9 : arg9.IsWhole)
  (x0 : Vec F S1x1024x3 .f32) (x1 : Vec F S1x3x1024 .f32)
  (xs0 : Vec F S1x8192 .f32) (xs1 : Vec F S1x8192 .f32) (xs2 : Vec F S1024x1 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The row-minimum scratch after one grid point -/

theorem s2_A (hc0 : cond0_0 i) (hc1 : cond0_1 i) (hc2 : ¬cond0_2 i) (hc3 : ¬cond0_3 i) :
    sout0_A_2 c i arg3 harg3 arg4 harg4 arg5 harg5 arg6 harg6 arg7 harg7 arg8 harg8 arg9 harg9 hc0 hc1 hc2 hc3 x0 x1 = k0_pay1 (k0_pay11 x0 x1 (k0_pay8 (F := F))) := by
  unfold sout0_A_2
  rw [View.read_writes_eq_canon _ _ _ (scover0_A_2 c i arg3 harg3 arg4 harg4 arg5 harg5 arg6 harg6 arg7 harg7 arg8 harg8 arg9 harg9 hc0 hc1 hc2 hc3 x0 x1)]
  unfold kernelRun0_A
  dsimp only
  sl_unfold_run_names
  rw [View.canon_cons_unit_zero (S := S1024x1) hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s2_B (hc0 : ¬cond0_0 i) (hc1 : ¬cond0_1 i) (hc2 : ¬cond0_2 i) (hc3 : ¬cond0_3 i) :
    sout0_B_2 c i arg3 harg3 arg4 harg4 arg5 harg5 arg6 harg6 arg7 harg7 arg8 harg8 arg9 harg9 hc0 hc1 hc2 hc3 x0 x1 xs0 xs1 xs2 = k0_pay1 (k0_pay11 x0 x1 xs2) := by
  unfold sout0_B_2
  rw [View.read_writes_eq_canon _ _ _ (scover0_B_2 c i arg3 harg3 arg4 harg4 arg5 harg5 arg6 harg6 arg7 harg7 arg8 harg8 arg9 harg9 hc0 hc1 hc2 hc3 x0 x1 xs0 xs1 xs2)]
  unfold kernelRun0_B
  dsimp only
  sl_unfold_run_names
  rw [View.canon_unit_zero (S := S1024x1) hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s2_C (hc0 : ¬cond0_0 i) (hc1 : ¬cond0_1 i) (hc2 : cond0_2 i) (hc3 : ¬cond0_3 i) :
    sout0_C_2 c i arg3 harg3 arg4 harg4 arg5 harg5 arg6 harg6 arg7 harg7 arg8 harg8 arg9 harg9 hc0 hc1 hc2 hc3 x0 x1 xs1 xs2 = k0_pay1 (k0_pay11 x0 x1 xs2) := by
  unfold sout0_C_2
  rw [View.read_writes_eq_canon _ _ _ (scover0_C_2 c i arg3 harg3 arg4 harg4 arg5 harg5 arg6 harg6 arg7 harg7 arg8 harg8 arg9 harg9 hc0 hc1 hc2 hc3 x0 x1 xs1 xs2)]
  unfold kernelRun0_C
  dsimp only
  sl_unfold_run_names
  rw [View.canon_unit_zero (S := S1024x1) hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s2_D (hc0 : ¬cond0_0 i) (hc1 : cond0_1 i) (hc2 : ¬cond0_2 i) (hc3 : ¬cond0_3 i) :
    sout0_D_2 c i arg3 harg3 arg4 harg4 arg5 harg5 arg6 harg6 arg7 harg7 arg8 harg8 arg9 harg9 hc0 hc1 hc2 hc3 x0 x1 xs0 xs1 = k0_pay1 (k0_pay11 x0 x1 (k0_pay8 (F := F))) := by
  unfold sout0_D_2
  rw [View.read_writes_eq_canon _ _ _ (scover0_D_2 c i arg3 harg3 arg4 harg4 arg5 harg5 arg6 harg6 arg7 harg7 arg8 harg8 arg9 harg9 hc0 hc1 hc2 hc3 x0 x1 xs0 xs1)]
  unfold kernelRun0_D
  dsimp only
  sl_unfold_run_names
  rw [View.canon_cons_unit_zero (S := S1024x1) hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s2_E (hc0 : ¬cond0_0 i) (hc1 : ¬cond0_1 i) (hc2 : cond0_2 i) (hc3 : cond0_3 i) :
    sout0_E_2 c i arg3 harg3 arg4 harg4 arg5 harg5 arg6 harg6 arg7 harg7 arg8 harg8 arg9 harg9 hc0 hc1 hc2 hc3 x0 x1 xs0 xs1 xs2 = k0_pay1 (k0_pay11 x0 x1 xs2) := by
  unfold sout0_E_2
  rw [View.read_writes_eq_canon _ _ _ (scover0_E_2 c i arg3 harg3 arg4 harg4 arg5 harg5 arg6 harg6 arg7 harg7 arg8 harg8 arg9 harg9 hc0 hc1 hc2 hc3 x0 x1 xs0 xs1 xs2)]
  unfold kernelRun0_E
  dsimp only
  sl_unfold_run_names
  rw [View.canon_unit_zero (S := S1024x1) hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

/-! ## The column-minimum scratch after one grid point: the tile of columns the point visits takes the lesser of what
    it held and the tile's column minima; the other columns keep what they held -/

theorem s1_B_mem (hc0 : ¬cond0_0 i) (hc1 : ¬cond0_1 i) (hc2 : ¬cond0_2 i) (hc3 : ¬cond0_3 i) (y : S1x8192.Idx) (x : (Rect.unit (s := S1x8192) (k0_off1 i) S1x1024.size (k0_off1_inb i)).shape.Idx) (hx : ∀ a, (y a).val = k0_off1 i a + (x a).val) :
    sout0_B_1 c i arg3 harg3 arg4 harg4 arg5 harg5 arg6 harg6 arg7 harg7 arg8 harg8 arg9 harg9 hc0 hc1 hc2 hc3 x0 x1 xs0 xs1 xs2 y = k0_pay2 (k0_pay10 x0 x1) (View.ld xs1 (Rect.unit (s := S1x8192) (k0_off1 i) S1x1024.size (k0_off1_inb i))) x := by
  unfold sout0_B_1
  unfold kernelRun0_B
  dsimp only
  sl_unfold_run_names
  rw [View.read_writes_cons_unit_of_mem _ _ _ _ _ y x rfl hx]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s1_B_out (hc0 : ¬cond0_0 i) (hc1 : ¬cond0_1 i) (hc2 : ¬cond0_2 i) (hc3 : ¬cond0_3 i) (y : S1x8192.Idx) (a : Fin 2) (ha : (y a).val < k0_off1 i a ∨ k0_off1 i a + S1x1024.size a ≤ (y a).val) :
    sout0_B_1 c i arg3 harg3 arg4 harg4 arg5 harg5 arg6 harg6 arg7 harg7 arg8 harg8 arg9 harg9 hc0 hc1 hc2 hc3 x0 x1 xs0 xs1 xs2 y = xs1 y := by
  unfold sout0_B_1
  unfold kernelRun0_B
  dsimp only
  sl_unfold_run_names
  rw [View.read_writes_cons_unit_of_not_mem _ _ _ _ _ y rfl a ha]
  exact congrFun (harg8.read_unread xs1) y

theorem s1_C_mem (hc0 : ¬cond0_0 i) (hc1 : ¬cond0_1 i) (hc2 : cond0_2 i) (hc3 : ¬cond0_3 i) (y : S1x8192.Idx) (x : (Rect.unit (s := S1x8192) (k0_off1 i) S1x1024.size (k0_off1_inb i)).shape.Idx) (hx : ∀ a, (y a).val = k0_off1 i a + (x a).val) :
    sout0_C_1 c i arg3 harg3 arg4 harg4 arg5 harg5 arg6 harg6 arg7 harg7 arg8 harg8 arg9 harg9 hc0 hc1 hc2 hc3 x0 x1 xs1 xs2 y = k0_pay2 (k0_pay10 x0 x1) (View.ld xs1 (Rect.unit (s := S1x8192) (k0_off1 i) S1x1024.size (k0_off1_inb i))) x := by
  unfold sout0_C_1
  unfold kernelRun0_C
  dsimp only
  sl_unfold_run_names
  rw [View.read_writes_cons_unit_of_mem _ _ _ _ _ y x rfl hx]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s1_C_out (hc0 : ¬cond0_0 i) (hc1 : ¬cond0_1 i) (hc2 : cond0_2 i) (hc3 : ¬cond0_3 i) (y : S1x8192.Idx) (a : Fin 2) (ha : (y a).val < k0_off1 i a ∨ k0_off1 i a + S1x1024.size a ≤ (y a).val) :
    sout0_C_1 c i arg3 harg3 arg4 harg4 arg5 harg5 arg6 harg6 arg7 harg7 arg8 harg8 arg9 harg9 hc0 hc1 hc2 hc3 x0 x1 xs1 xs2 y = xs1 y := by
  unfold sout0_C_1
  unfold kernelRun0_C
  dsimp only
  sl_unfold_run_names
  rw [View.read_writes_cons_unit_of_not_mem _ _ _ _ _ y rfl a ha]
  exact congrFun (harg8.read_unread xs1) y

theorem s1_D_mem (hc0 : ¬cond0_0 i) (hc1 : cond0_1 i) (hc2 : ¬cond0_2 i) (hc3 : ¬cond0_3 i) (y : S1x8192.Idx) (x : (Rect.unit (s := S1x8192) (k0_off1 i) S1x1024.size (k0_off1_inb i)).shape.Idx) (hx : ∀ a, (y a).val = k0_off1 i a + (x a).val) :
    sout0_D_1 c i arg3 harg3 arg4 harg4 arg5 harg5 arg6 harg6 arg7 harg7 arg8 harg8 arg9 harg9 hc0 hc1 hc2 hc3 x0 x1 xs0 xs1 y = k0_pay2 (k0_pay10 x0 x1) (View.ld xs1 (Rect.unit (s := S1x8192) (k0_off1 i) S1x1024.size (k0_off1_inb i))) x := by
  unfold sout0_D_1
  unfold kernelRun0_D
  dsimp only
  sl_unfold_run_names
  rw [View.read_writes_cons_unit_of_mem _ _ _ _ _ y x rfl hx]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s1_D_out (hc0 : ¬cond0_0 i) (hc1 : cond0_1 i) (hc2 : ¬cond0_2 i) (hc3 : ¬cond0_3 i) (y : S1x8192.Idx) (a : Fin 2) (ha : (y a).val < k0_off1 i a ∨ k0_off1 i a + S1x1024.size a ≤ (y a).val) :
    sout0_D_1 c i arg3 harg3 arg4 harg4 arg5 harg5 arg6 harg6 arg7 harg7 arg8 harg8 arg9 harg9 hc0 hc1 hc2 hc3 x0 x1 xs0 xs1 y = xs1 y := by
  unfold sout0_D_1
  unfold kernelRun0_D
  dsimp only
  sl_unfold_run_names
  rw [View.read_writes_cons_unit_of_not_mem _ _ _ _ _ y rfl a ha]
  exact congrFun (harg8.read_unread xs1) y

theorem s1_E_mem (hc0 : ¬cond0_0 i) (hc1 : ¬cond0_1 i) (hc2 : cond0_2 i) (hc3 : cond0_3 i) (y : S1x8192.Idx) (x : (Rect.unit (s := S1x8192) (k0_off1 i) S1x1024.size (k0_off1_inb i)).shape.Idx) (hx : ∀ a, (y a).val = k0_off1 i a + (x a).val) :
    sout0_E_1 c i arg3 harg3 arg4 harg4 arg5 harg5 arg6 harg6 arg7 harg7 arg8 harg8 arg9 harg9 hc0 hc1 hc2 hc3 x0 x1 xs0 xs1 xs2 y = k0_pay2 (k0_pay10 x0 x1) (View.ld xs1 (Rect.unit (s := S1x8192) (k0_off1 i) S1x1024.size (k0_off1_inb i))) x := by
  unfold sout0_E_1
  unfold kernelRun0_E
  dsimp only
  sl_unfold_run_names
  rw [View.read_writes_cons_unit_of_mem _ _ _ _ _ y x rfl hx]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s1_E_out (hc0 : ¬cond0_0 i) (hc1 : ¬cond0_1 i) (hc2 : cond0_2 i) (hc3 : cond0_3 i) (y : S1x8192.Idx) (a : Fin 2) (ha : (y a).val < k0_off1 i a ∨ k0_off1 i a + S1x1024.size a ≤ (y a).val) :
    sout0_E_1 c i arg3 harg3 arg4 harg4 arg5 harg5 arg6 harg6 arg7 harg7 arg8 harg8 arg9 harg9 hc0 hc1 hc2 hc3 x0 x1 xs0 xs1 xs2 y = xs1 y := by
  unfold sout0_E_1
  unfold kernelRun0_E
  dsimp only
  sl_unfold_run_names
  rw [View.read_writes_cons_unit_of_not_mem _ _ _ _ _ y rfl a ha]
  exact congrFun (harg8.read_unread xs1) y

theorem s1_A_mem (hc0 : cond0_0 i) (hc1 : cond0_1 i) (hc2 : ¬cond0_2 i) (hc3 : ¬cond0_3 i) (y : S1x8192.Idx) (x : (Rect.unit (s := S1x8192) (k0_off1 i) S1x1024.size (k0_off1_inb i)).shape.Idx) (hx : ∀ a, (y a).val = k0_off1 i a + (x a).val) :
    sout0_A_1 c i arg3 harg3 arg4 harg4 arg5 harg5 arg6 harg6 arg7 harg7 arg8 harg8 arg9 harg9 hc0 hc1 hc2 hc3 x0 x1 y = k0_pay2 (k0_pay10 x0 x1) (View.ld (k0_pay7 (F := F)) (Rect.unit (s := S1x8192) (k0_off1 i) S1x1024.size (k0_off1_inb i))) x := by
  unfold sout0_A_1
  unfold kernelRun0_A
  dsimp only
  sl_unfold_run_names
  rw [View.read_writes_cons_unit_of_mem _ _ _ _ _ y x rfl hx]
  rw [View.readAt_eq_ld (v := arg8.view), View.read_writes_eq_canon _ _ _ (fun y => ⟨_, List.mem_singleton_self _, View.mem_set_unit_zero hz2 Gen.inb_S1x8192_S1x8192_0_0 y⟩), View.canon_unit_zero hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s1_A_out (hc0 : cond0_0 i) (hc1 : cond0_1 i) (hc2 : ¬cond0_2 i) (hc3 : ¬cond0_3 i) (y : S1x8192.Idx) (a : Fin 2) (ha : (y a).val < k0_off1 i a ∨ k0_off1 i a + S1x1024.size a ≤ (y a).val) :
    sout0_A_1 c i arg3 harg3 arg4 harg4 arg5 harg5 arg6 harg6 arg7 harg7 arg8 harg8 arg9 harg9 hc0 hc1 hc2 hc3 x0 x1 y = k0_pay7 (F := F) y := by
  unfold sout0_A_1
  unfold kernelRun0_A
  dsimp only
  sl_unfold_run_names
  rw [View.read_writes_cons_unit_of_not_mem _ _ _ _ _ y rfl a ha]
  rw [View.read_writes_eq_canon _ _ _ (fun y => ⟨_, List.mem_singleton_self _, View.mem_set_unit_zero hz2 Gen.inb_S1x8192_S1x8192_0_0 y⟩), View.canon_unit_zero hz2]

/-! ## The row-result scratch after one grid point -/

theorem s0_A (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 hc0 hc1 hc2 hc3 x0 x1 = k0_pay6 (F := F) := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1)]
  unfold kernelRun0_A
  dsimp only
  rw [View.canon_unit_zero (S := S1x8192) hz2]

theorem s0_C_mem (hc0 : ¬cond0_0 i) (hc1 : ¬cond0_1 i) (hc2 : cond0_2 i) (hc3 : ¬cond0_3 i) (y : S1x8192.Idx) (x : (Rect.unit (s := S1x8192) (k0_off2 i) S1x1024.size (k0_off2_inb i hc2)).shape.Idx) (hx : ∀ a, (y a).val = k0_off2 i a + (x a).val) :
    sout0_C_0 c i arg3 harg3 arg4 harg4 arg5 harg5 arg6 harg6 arg7 harg7 arg8 harg8 arg9 harg9 hc0 hc1 hc2 hc3 x0 x1 xs1 xs2 xs0 y = k0_pay3 (k0_pay1 (k0_pay11 x0 x1 xs2)) x := by
  unfold sout0_C_0
  unfold kernelRun0_C
  dsimp only
  sl_unfold_run_names
  rw [View.read_writes_cons_unit_of_mem _ _ _ _ _ y x rfl hx]
  rw [View.readCov_unit_zero (S := S1024x1) _ hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s0_C_out (hc0 : ¬cond0_0 i) (hc1 : ¬cond0_1 i) (hc2 : cond0_2 i) (hc3 : ¬cond0_3 i) (y : S1x8192.Idx) (a : Fin 2) (ha : (y a).val < k0_off2 i a ∨ k0_off2 i a + S1x1024.size a ≤ (y a).val) :
    sout0_C_0 c i arg3 harg3 arg4 harg4 arg5 harg5 arg6 harg6 arg7 harg7 arg8 harg8 arg9 harg9 hc0 hc1 hc2 hc3 x0 x1 xs1 xs2 xs0 y = xs0 y := by
  unfold sout0_C_0
  unfold kernelRun0_C
  dsimp only
  sl_unfold_run_names
  rw [View.read_writes_cons_unit_of_not_mem _ _ _ _ _ y rfl a ha]
  exact congrFun (harg7.read_unread xs0) y

theorem s0_E_mem (hc0 : ¬cond0_0 i) (hc1 : ¬cond0_1 i) (hc2 : cond0_2 i) (hc3 : cond0_3 i) (y : S1x8192.Idx) (x : (Rect.unit (s := S1x8192) (k0_off2 i) S1x1024.size (k0_off2_inb i hc2)).shape.Idx) (hx : ∀ a, (y a).val = k0_off2 i a + (x a).val) :
    sout0_E_0 c i arg3 harg3 arg4 harg4 arg5 harg5 arg6 harg6 arg7 harg7 arg8 harg8 arg9 harg9 hc0 hc1 hc2 hc3 x0 x1 xs0 xs1 xs2 y = k0_pay3 (k0_pay1 (k0_pay11 x0 x1 xs2)) x := by
  unfold sout0_E_0
  unfold kernelRun0_E
  dsimp only
  sl_unfold_run_names
  rw [View.read_writes_cons_unit_of_mem _ _ _ _ _ y x rfl hx]
  rw [View.readCov_unit_zero (S := S1024x1) _ hz2]
  simp only [View.readAt_eq_ld, harg3.read_unread, harg4.read_unread, harg7.read_unread, harg8.read_unread, harg9.read_unread, View.ld_unit_zero (S := S1x1024x3) hz3, View.ld_unit_zero (S := S1x3x1024) hz3, View.ld_unit_zero (S := S1024x1) hz2, View.ld_unit_zero (S := S1x8192) hz2, View.readCov_unit_zero (S := S1024x1) _ hz2, View.readCov_unit_zero (S := S1x8192) _ hz2]

theorem s0_E_out (hc0 : ¬cond0_0 i) (hc1 : ¬cond0_1 i) (hc2 : cond0_2 i) (hc3 : cond0_3 i) (y : S1x8192.Idx) (a : Fin 2) (ha : (y a).val < k0_off2 i a ∨ k0_off2 i a + S1x1024.size a ≤ (y a).val) :
    sout0_E_0 c i arg3 harg3 arg4 harg4 arg5 harg5 arg6 harg6 arg7 harg7 arg8 harg8 arg9 harg9 hc0 hc1 hc2 hc3 x0 x1 xs0 xs1 xs2 y = xs0 y := by
  unfold sout0_E_0
  unfold kernelRun0_E
  dsimp only
  sl_unfold_run_names
  rw [View.read_writes_cons_unit_of_not_mem _ _ _ _ _ y rfl a ha]
  exact congrFun (harg7.read_unread xs0) y

/-! ## The two output blocks at a batch's last grid point: the row-result and column-minimum scratches, re-laid -/

theorem o2_E (hc0 : ¬cond0_0 i) (hc1 : ¬cond0_1 i) (hc2 : cond0_2 i) (hc3 : cond0_3 i) :
    out0_E_2 c i arg3 harg3 arg4 harg4 arg5 harg5 arg6 harg6 arg7 harg7 arg8 harg8 arg9 harg9 hc0 hc1 hc2 hc3 x0 x1 xs0 xs1 xs2 = k0_pay4 (sout0_E_0 c i arg3 harg3 arg4 harg4 arg5 harg5 arg6 harg6 arg7 harg7 arg8 harg8 arg9 harg9 hc0 hc1 hc2 hc3 x0 x1 xs0 xs1 xs2) := by
  unfold out0_E_2
  rw [View.read_writes_eq_canon _ _ _ (cover0_E_2 c i arg3 harg3 arg4 harg4 arg5 harg5 arg6 harg6 arg7 harg7 arg8 harg8 arg9 harg9 hc0 hc1 hc2 hc3 x0 x1 xs0 xs1 xs2)]
  unfold sout0_E_0
  unfold kernelRun0_E
  dsimp only
  sl_unfold_run_names
  rw [View.canon_unit_zero (S := S1x1x8192) hz3]
  rw [View.readAt_eq_ld, View.ld_unit_zero (S := S1x8192) hz2]

theorem o3_E (hc0 : ¬cond0_0 i) (hc1 : ¬cond0_1 i) (hc2 : cond0_2 i) (hc3 : cond0_3 i) :
    out0_E_3 c i arg3 harg3 arg4 harg4 arg5 harg5 arg6 harg6 arg7 harg7 arg8 harg8 arg9 harg9 hc0 hc1 hc2 hc3 x0 x1 xs0 xs1 xs2 = k0_pay5 (sout0_E_1 c i arg3 harg3 arg4 harg4 arg5 harg5 arg6 harg6 arg7 harg7 arg8 harg8 arg9 harg9 hc0 hc1 hc2 hc3 x0 x1 xs0 xs1 xs2) := by
  unfold out0_E_3
  rw [View.read_writes_eq_canon _ _ _ (cover0_E_3 c i arg3 harg3 arg4 harg4 arg5 harg5 arg6 harg6 arg7 harg7 arg8 harg8 arg9 harg9 hc0 hc1 hc2 hc3 x0 x1 xs0 xs1 xs2)]
  unfold sout0_E_1
  unfold kernelRun0_E
  dsimp only
  sl_unfold_run_names
  rw [View.canon_unit_zero (S := S1x1x8192) hz3]
  rw [View.readAt_eq_ld, View.ld_unit_zero (S := S1x8192) hz2]

end Chamfer.KCases
end
-- ==== Proof.KBlocks.lean ====
/-
  Where the kernel's input tiles sit in the two clouds. The grid has 4 × 8 × 8 points, counted row-major: point `t` is
  batch `t / 64`, row tile `(t / 8) % 8`, column tile `t % 8`. At it the first input tile is rows
  `1024 · ((t / 8) % 8) …` of batch `t / 64` of the first cloud; the second input tile is columns `1024 · (t % 8) …` of
  the same batch of the second cloud with its last two axes exchanged, which is how the second cloud reaches the grid.
  The two running rows of minima are addressed at the column tile and at the row tile.
-/
import proofs.«104449_j73160472920067_2_alg».proof.Proof.Gen.KernelIdeal.Frame
import Idealize.ShloMosaic.Lib.Pipeline.Value
import Idealize.ShloMosaic.Lib.ValueIdx
import Idealize.ShloMosaic.Lib.StableHlo.Run

noncomputable section

namespace Chamfer.KBlocks

open Idealize.ShloMosaic Idealize.ShloMosaic.TcCoe Idealize.SL.Sem
open Cert.KernelIdeal Cert.KernelIdeal.Gen Idealize.ShloMosaic.ValueIdx

variable {F : FTy → Type} [FloatOps F] (m : (ℓ : Loc nD τ sig) → Buf (Elt F) ℓ)

/-- The grid has 256 points. -/
theorem t_lt (t : Fin cfg0.N) : t.val < 256 := lt_of_lt_of_eq t.isLt (show cfg0.N = 256 from N_0)

/-! ## The offsets into the running rows of minima -/

/-- The row of column minima is addressed at the column tile. -/
theorem off1_eq : ∀ t : Fin cfg0.N, k0_off1 (grid0.coords t) = ![0, (t.val % 8) * 1024] :=
  (by decide +kernel : ∀ t : Fin grid0.N, k0_off1 (grid0.coords t) = ![0, (t.val % 8) * 1024])

/-- The row of row minima is addressed at the row tile. -/
theorem off2_eq : ∀ t : Fin cfg0.N, k0_off2 (grid0.coords t) = ![0, ((t.val / 8) % 8) * 1024] :=
  (by decide +kernel : ∀ t : Fin grid0.N, k0_off2 (grid0.coords t) = ![0, ((t.val / 8) % 8) * 1024])

/-! ## The first input tile -/

/-- The first window's block index at point `t`: batch, row tile, and the whole coordinate axis. -/
theorem index0 : ∀ t : Fin cfg0.N,
    win0_0.index t 0 = t.val / 64 ∧ win0_0.index t 1 = (t.val / 8) % 8 ∧ win0_0.index t 2 = 0 :=
  (by decide +kernel : ∀ t : Fin grid0.N,
    win0_0.index t 0 = t.val / 64 ∧ win0_0.index t 1 = (t.val / 8) % 8 ∧ win0_0.index t 2 = 0)

/-- Point `r` of the first input tile at `t` is point `1024 · ((t / 8) % 8) + r` of batch `t / 64` of the first cloud. -/
theorem iblk0_apply (c : Dev nD) (t : Fin cfg0.N) (r : Fin 1024) (d : Fin 3) :
    (iblk m c 0 t : Vec F S1x1024x3 .f32) (ix3 (0 : Fin 1) r d)
      = m ((c.tc : Thread nD τ).loc main_arg0)
          (ix3 (⟨t.val / 64, by have := t_lt t; omega⟩ : Fin 4)
            (⟨((t.val / 8) % 8) * 1024 + r.val, by have := t_lt t; have := r.isLt; omega⟩ : Fin 8192) d) := by
  have hi := index0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 64; rw [hi.1]; omega
  | ⟨1, _⟩ => show win0_0.index t 1 * 1024 + 1 * r.val = ((t.val / 8) % 8) * 1024 + r.val; rw [hi.2.1]; omega
  | ⟨2, _⟩ => show win0_0.index t 2 * 3 + 1 * d.val = d.val; rw [hi.2.2]; omega

/-! ## The second input tile -/

/-- The second window's block index at point `t`: batch, the whole coordinate axis, and column tile. -/
theorem index1 : ∀ t : Fin cfg0.N,
    win0_1.index t 0 = t.val / 64 ∧ win0_1.index t 1 = 0 ∧ win0_1.index t 2 = t.val % 8 :=
  (by decide +kernel : ∀ t : Fin grid0.N,
    win0_1.index t 0 = t.val / 64 ∧ win0_1.index t 1 = 0 ∧ win0_1.index t 2 = t.val % 8)

/-- The array the second window reads is the second cloud with its last two axes exchanged. -/
theorem V_main_v0 (c : Dev nD) :
    (V m c main_v0 : S4x3x8192.Idx → Elt F .f32)
      = transpose S4x3x8192 [0, 2, 1] (m ((c.tc : Thread nD τ).loc main_arg1)) transposes_S4x8192x3_S4x3x8192_0_2_1 := by
  dsimp only [Gen.V, Gen.V0]
  simp only [Gen.hostOps0, List.flatten_cons, List.flatten_nil, List.append_nil, List.cons_append, List.nil_append]
  after_results

/-- With the last two axes exchanged, the entry at `(b, d, n)` is the array's entry at `(b, n, d)`. -/
theorem transpose021_apply {α : Type} (x : S4x8192x3.Idx → α) (h : S4x8192x3.Transposes [0, 2, 1] S4x3x8192)
    (b : Fin 4) (d : Fin 3) (n : Fin 8192) : transpose S4x3x8192 [0, 2, 1] x h (ix3 b d n) = x (ix3 b n d) :=
  transpose_apply [0, 2, 1] x h (ix3 b d n) (ix3 b n d) (fun a => match a with
    | ⟨0, _⟩ => rfl
    | ⟨1, _⟩ => rfl
    | ⟨2, _⟩ => rfl)

/-- Point `q` of the second input tile at `t` is point `1024 · (t % 8) + q` of batch `t / 64` of the second cloud. -/
theorem iblk1_apply (c : Dev nD) (t : Fin cfg0.N) (d : Fin 3) (q : Fin 1024) :
    (iblk m c 1 t : Vec F S1x3x1024 .f32) (ix3 (0 : Fin 1) d q)
      = m ((c.tc : Thread nD τ).loc main_arg1)
          (ix3 (⟨t.val / 64, by have := t_lt t; omega⟩ : Fin 4)
            (⟨(t.val % 8) * 1024 + q.val, by have := q.isLt; omega⟩ : Fin 8192) d) := by
  have hi := index1 t
  unfold iblk
  rw [View.read_apply]
  show V m c main_v0 _ = m (c.tc.loc main_arg1) _
  rw [V_main_v0]
  refine Eq.trans ?_ (transpose021_apply (m ((c.tc : Thread nD τ).loc main_arg1)) transposes_S4x8192x3_S4x3x8192_0_2_1 _ d _)
  congr 1
  funext a
  apply Fin.ext
  match a with
  | ⟨0, _⟩ => show win0_1.index t 0 * 1 + 1 * 0 = t.val / 64; rw [hi.1]; omega
  | ⟨1, _⟩ => show win0_1.index t 1 * 3 + 1 * d.val = d.val; rw [hi.2.1]; omega
  | ⟨2, _⟩ => show win0_1.index t 2 * 1024 + 1 * q.val = (t.val % 8) * 1024 + q.val; rw [hi.2.2]; omega

end Chamfer.KBlocks

end
-- ==== Proof.KStep.lean ====
/-
  One grid point of the kernel, as three update equations over the extended reals that hold at every point alike:
  the running row minima take the lesser of what they held (or +∞ at the first column tile) and the minima of the
  point's table of squared distances along its rows; the running column minima do the same on the tile of columns the
  point visits; the row results take the finished row minima on the tile of rows the point closes. At the last point
  of a batch the two output blocks are the row results and the column minima. The table's entry is the squared
  distance between the two points the tiles' indices name in the argument arrays.
-/
import proofs.«104449_j73160472920067_2_alg».proof.Proof.Spec
import proofs.«104449_j73160472920067_2_alg».proof.Proof.KPay
import proofs.«104449_j73160472920067_2_alg».proof.Proof.KCases
import proofs.«104449_j73160472920067_2_alg».proof.Proof.KBlocks

set_option maxRecDepth 16384

noncomputable section

namespace Chamfer.KStep

open Idealize.ShloMosaic Idealize.ShloMosaic.TcCoe Idealize.SL.Sem Idealize.ShloMosaic.ValueIdx
open Cert.KernelIdeal Cert.KernelIdeal.Gen
open Chamfer.KPay Chamfer.KCases Chamfer.KBlocks

variable (m : (ℓ : Loc nD τ sig) → Buf (Elt Ideal) ℓ) (c : Dev nD)

/-- A load through a unit-stride rectangle reads the contents at the offsets plus the local index. -/
theorem ld_unit_apply {S : Shape} {Val : EltTy → Type} {e : EltTy} (X : S.Idx → Val e) {off size : Fin S.rank → Nat} (inb : ∀ a, off a + size a ≤ S.size a)
    (x : (Rect.unit off size inb).shape.Idx) (y : S.Idx) (hx : ∀ a, (y a).val = off a + (x a).val) :
    View.ld X (Rect.unit off size inb) x = X y := by
  have hy : (Rect.unit off size inb).emb x = y := funext fun a => Fin.ext (by
    show off a + 1 * (x a).val = (y a).val
    rw [hx a, Nat.one_mul])
  show X ((Rect.unit off size inb).emb x) = X y
  rw [hy]

/-- The running row minima after point `t`. -/
theorem E2 (t : Fin cfg0.N) (r : Fin 1024) :
    (outsAt0 m c t.val t.isLt).2.2.2.2 (ix2 r (0 : Fin 1))
      = min (if t.val % 8 = 0 then ⊤ else (outsAt0 m c (t.val - 1) (Nat.lt_of_le_of_lt (Nat.sub_le _ _) t.isLt)).2.2.2.2 (ix2 r (0 : Fin 1)))
          (⨅ cc : Fin 1024, k0_pay9 (F := Ideal) (iblk m c 0 t) (iblk m c 1 t) (ix2 r cc)) := by
  have hN : t.val < 256 := lt_of_lt_of_eq t.isLt (show cfg0.N = 256 from N_0)
  by_cases h0 : t.val % 64 = 0
  · have h1 : t.val % 8 = 0 := by omega
    have h2 : ¬ t.val % 8 = 7 := by omega
    have h3 : ¬ t.val % 64 = 63 := by omega
    rw [outsAt0_A m c t h0 h1 h2 h3]
    dsimp only
    rw [if_pos h1]
    refine (congrFun (s2_A (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t)  (hc0 := ((hcond0_0 t).mpr h0)) (hc1 := ((hcond0_1 t).mpr h1)) (hc2 := (fun h => h2 ((hcond0_2 t).mp h))) (hc3 := (fun h => h3 ((hcond0_3 t).mp h)))) (ix2 r (0 : Fin 1))).trans ?_
    refine (congrFun (pay1_eq _) _).trans ?_
    refine (pay11_apply (iblk m c 0 t) (iblk m c 1 t) (k0_pay8 (F := Ideal)) r).trans ?_
    rw [pay8_apply]
  · by_cases h1 : t.val % 8 = 0
    · have h2 : ¬ t.val % 8 = 7 := by omega
      have h3 : ¬ t.val % 64 = 63 := by omega
      rw [outsAt0_D m c t h0 h1 h2 h3]
      dsimp only
      rw [if_pos h1]
      refine (congrFun (s2_D (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (hc0 := (fun h => h0 ((hcond0_0 t).mp h))) (hc1 := ((hcond0_1 t).mpr h1)) (hc2 := (fun h => h2 ((hcond0_2 t).mp h))) (hc3 := (fun h => h3 ((hcond0_3 t).mp h)))) (ix2 r (0 : Fin 1))).trans ?_
      refine (congrFun (pay1_eq _) _).trans ?_
      refine (pay11_apply (iblk m c 0 t) (iblk m c 1 t) (k0_pay8 (F := Ideal)) r).trans ?_
      rw [pay8_apply]
    · by_cases h2 : t.val % 8 = 7
      · by_cases h3 : t.val % 64 = 63
        · rw [outsAt0_E m c t h0 h1 h2 h3]
          dsimp only
          rw [if_neg h1]
          refine (congrFun (s2_E (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3))) (ix2 r (0 : Fin 1))).trans ?_
          refine (congrFun (pay1_eq _) _).trans ?_
          exact pay11_apply (iblk m c 0 t) (iblk m c 1 t) (outsAt0 m c (t.val - 1) (Nat.lt_of_le_of_lt (Nat.sub_le _ _) t.isLt)).2.2.2.2 r
        · rw [outsAt0_C m c t h0 h1 h2 h3]
          dsimp only
          rw [if_neg h1]
          refine (congrFun (s2_C (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h)))) (ix2 r (0 : Fin 1))).trans ?_
          refine (congrFun (pay1_eq _) _).trans ?_
          exact pay11_apply (iblk m c 0 t) (iblk m c 1 t) (outsAt0 m c (t.val - 1) (Nat.lt_of_le_of_lt (Nat.sub_le _ _) t.isLt)).2.2.2.2 r
      · have h3 : ¬ t.val % 64 = 63 := by omega
        rw [outsAt0_B m c t h0 h1 h2 h3]
        dsimp only
        rw [if_neg h1]
        refine (congrFun (s2_B (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := (fun h => h2 ((hcond0_2 t).mp h))) (hc3 := (fun h => h3 ((hcond0_3 t).mp h)))) (ix2 r (0 : Fin 1))).trans ?_
        refine (congrFun (pay1_eq _) _).trans ?_
        exact pay11_apply (iblk m c 0 t) (iblk m c 1 t) (outsAt0 m c (t.val - 1) (Nat.lt_of_le_of_lt (Nat.sub_le _ _) t.isLt)).2.2.2.2 r

/-- The running column minima after point `t`. -/
theorem E1 (t : Fin cfg0.N) (q : Fin 8192) :
    (outsAt0 m c t.val t.isLt).2.2.2.1 (ix2 (0 : Fin 1) q)
      = if q.val / 1024 = t.val % 8 then
          min (if t.val % 64 = 0 then ⊤ else (outsAt0 m c (t.val - 1) (Nat.lt_of_le_of_lt (Nat.sub_le _ _) t.isLt)).2.2.2.1 (ix2 (0 : Fin 1) q))
            (⨅ r : Fin 1024, k0_pay9 (F := Ideal) (iblk m c 0 t) (iblk m c 1 t) (ix2 r (⟨q.val % 1024, Nat.mod_lt _ (by norm_num)⟩ : Fin 1024)))
        else (if t.val % 64 = 0 then ⊤ else (outsAt0 m c (t.val - 1) (Nat.lt_of_le_of_lt (Nat.sub_le _ _) t.isLt)).2.2.2.1 (ix2 (0 : Fin 1) q)) := by
  have hN : t.val < 256 := lt_of_lt_of_eq t.isLt (show cfg0.N = 256 from N_0)
  by_cases h0 : t.val % 64 = 0
  · have h1 : t.val % 8 = 0 := by omega
    have h2 : ¬ t.val % 8 = 7 := by omega
    have h3 : ¬ t.val % 64 = 63 := by omega
    rw [outsAt0_A m c t h0 h1 h2 h3]
    dsimp only
    rw [if_pos h0]
    by_cases hq : q.val / 1024 = t.val % 8
    · rw [if_pos hq]
      have hx : ∀ a, ((ix2 (0 : Fin 1) q : S1x8192.Idx) a).val = k0_off1 (grid0.coords t) a + ((ix2 (0 : Fin 1) (⟨q.val % 1024, Nat.mod_lt _ (by norm_num)⟩ : Fin 1024) : S1x1024.Idx) a).val := (fun a => by
        rw [off1_eq t]
        match a with
        | ⟨0, _⟩ => rfl
        | ⟨1, _⟩ => show q.val = (t.val % 8) * 1024 + q.val % 1024; omega)
      refine (s1_A_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t)  (hc0 := ((hcond0_0 t).mpr h0)) (hc1 := ((hcond0_1 t).mpr h1)) (hc2 := (fun h => h2 ((hcond0_2 t).mp h))) (hc3 := (fun h => h3 ((hcond0_3 t).mp h))) (y := ix2 (0 : Fin 1) q) (x := ix2 (0 : Fin 1) (⟨q.val % 1024, Nat.mod_lt _ (by norm_num)⟩ : Fin 1024)) (hx := hx)).trans ?_
      refine (pay2_apply _ _ (⟨q.val % 1024, Nat.mod_lt _ (by norm_num)⟩ : Fin 1024)).trans ?_
      exact congrArg₂ min ((ld_unit_apply _ _ _ (ix2 (0 : Fin 1) q) hx).trans (pay7_apply _)) (pay10_apply _ _ _)
    · rw [if_neg hq]
      refine (s1_A_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t)  (hc0 := ((hcond0_0 t).mpr h0)) (hc1 := ((hcond0_1 t).mpr h1)) (hc2 := (fun h => h2 ((hcond0_2 t).mp h))) (hc3 := (fun h => h3 ((hcond0_3 t).mp h))) (y := ix2 (0 : Fin 1) q) (a := 1) (ha := (by
        rw [off1_eq t]
        show q.val < (t.val % 8) * 1024 ∨ (t.val % 8) * 1024 + 1024 ≤ q.val
        omega))).trans ?_
      exact pay7_apply _
  · by_cases h1 : t.val % 8 = 0
    · have h2 : ¬ t.val % 8 = 7 := by omega
      have h3 : ¬ t.val % 64 = 63 := by omega
      rw [outsAt0_D m c t h0 h1 h2 h3]
      dsimp only
      rw [if_neg h0]
      by_cases hq : q.val / 1024 = t.val % 8
      · rw [if_pos hq]
        have hx : ∀ a, ((ix2 (0 : Fin 1) q : S1x8192.Idx) a).val = k0_off1 (grid0.coords t) a + ((ix2 (0 : Fin 1) (⟨q.val % 1024, Nat.mod_lt _ (by norm_num)⟩ : Fin 1024) : S1x1024.Idx) a).val := (fun a => by
          rw [off1_eq t]
          match a with
          | ⟨0, _⟩ => rfl
          | ⟨1, _⟩ => show q.val = (t.val % 8) * 1024 + q.val % 1024; omega)
        refine (s1_D_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (hc0 := (fun h => h0 ((hcond0_0 t).mp h))) (hc1 := ((hcond0_1 t).mpr h1)) (hc2 := (fun h => h2 ((hcond0_2 t).mp h))) (hc3 := (fun h => h3 ((hcond0_3 t).mp h))) (y := ix2 (0 : Fin 1) q) (x := ix2 (0 : Fin 1) (⟨q.val % 1024, Nat.mod_lt _ (by norm_num)⟩ : Fin 1024)) (hx := hx)).trans ?_
        refine (pay2_apply _ _ (⟨q.val % 1024, Nat.mod_lt _ (by norm_num)⟩ : Fin 1024)).trans ?_
        exact congrArg₂ min (ld_unit_apply _ _ _ (ix2 (0 : Fin 1) q) hx) (pay10_apply _ _ _)
      · rw [if_neg hq]
        exact s1_D_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (hc0 := (fun h => h0 ((hcond0_0 t).mp h))) (hc1 := ((hcond0_1 t).mpr h1)) (hc2 := (fun h => h2 ((hcond0_2 t).mp h))) (hc3 := (fun h => h3 ((hcond0_3 t).mp h))) (y := ix2 (0 : Fin 1) q) (a := 1) (ha := (by
          rw [off1_eq t]
          show q.val < (t.val % 8) * 1024 ∨ (t.val % 8) * 1024 + 1024 ≤ q.val
          omega))
    · by_cases h2 : t.val % 8 = 7
      · by_cases h3 : t.val % 64 = 63
        · rw [outsAt0_E m c t h0 h1 h2 h3]
          dsimp only
          rw [if_neg h0]
          by_cases hq : q.val / 1024 = t.val % 8
          · rw [if_pos hq]
            have hx : ∀ a, ((ix2 (0 : Fin 1) q : S1x8192.Idx) a).val = k0_off1 (grid0.coords t) a + ((ix2 (0 : Fin 1) (⟨q.val % 1024, Nat.mod_lt _ (by norm_num)⟩ : Fin 1024) : S1x1024.Idx) a).val := (fun a => by
              rw [off1_eq t]
              match a with
              | ⟨0, _⟩ => rfl
              | ⟨1, _⟩ => show q.val = (t.val % 8) * 1024 + q.val % 1024; omega)
            refine (s1_E_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3)) (y := ix2 (0 : Fin 1) q) (x := ix2 (0 : Fin 1) (⟨q.val % 1024, Nat.mod_lt _ (by norm_num)⟩ : Fin 1024)) (hx := hx)).trans ?_
            refine (pay2_apply _ _ (⟨q.val % 1024, Nat.mod_lt _ (by norm_num)⟩ : Fin 1024)).trans ?_
            exact congrArg₂ min (ld_unit_apply _ _ _ (ix2 (0 : Fin 1) q) hx) (pay10_apply _ _ _)
          · rw [if_neg hq]
            exact s1_E_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3)) (y := ix2 (0 : Fin 1) q) (a := 1) (ha := (by
              rw [off1_eq t]
              show q.val < (t.val % 8) * 1024 ∨ (t.val % 8) * 1024 + 1024 ≤ q.val
              omega))
        · rw [outsAt0_C m c t h0 h1 h2 h3]
          dsimp only
          rw [if_neg h0]
          by_cases hq : q.val / 1024 = t.val % 8
          · rw [if_pos hq]
            have hx : ∀ a, ((ix2 (0 : Fin 1) q : S1x8192.Idx) a).val = k0_off1 (grid0.coords t) a + ((ix2 (0 : Fin 1) (⟨q.val % 1024, Nat.mod_lt _ (by norm_num)⟩ : Fin 1024) : S1x1024.Idx) a).val := (fun a => by
              rw [off1_eq t]
              match a with
              | ⟨0, _⟩ => rfl
              | ⟨1, _⟩ => show q.val = (t.val % 8) * 1024 + q.val % 1024; omega)
            refine (s1_C_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h))) (y := ix2 (0 : Fin 1) q) (x := ix2 (0 : Fin 1) (⟨q.val % 1024, Nat.mod_lt _ (by norm_num)⟩ : Fin 1024)) (hx := hx)).trans ?_
            refine (pay2_apply _ _ (⟨q.val % 1024, Nat.mod_lt _ (by norm_num)⟩ : Fin 1024)).trans ?_
            exact congrArg₂ min (ld_unit_apply _ _ _ (ix2 (0 : Fin 1) q) hx) (pay10_apply _ _ _)
          · rw [if_neg hq]
            exact s1_C_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h))) (y := ix2 (0 : Fin 1) q) (a := 1) (ha := (by
              rw [off1_eq t]
              show q.val < (t.val % 8) * 1024 ∨ (t.val % 8) * 1024 + 1024 ≤ q.val
              omega))
      · have h3 : ¬ t.val % 64 = 63 := by omega
        rw [outsAt0_B m c t h0 h1 h2 h3]
        dsimp only
        rw [if_neg h0]
        by_cases hq : q.val / 1024 = t.val % 8
        · rw [if_pos hq]
          have hx : ∀ a, ((ix2 (0 : Fin 1) q : S1x8192.Idx) a).val = k0_off1 (grid0.coords t) a + ((ix2 (0 : Fin 1) (⟨q.val % 1024, Nat.mod_lt _ (by norm_num)⟩ : Fin 1024) : S1x1024.Idx) a).val := (fun a => by
            rw [off1_eq t]
            match a with
            | ⟨0, _⟩ => rfl
            | ⟨1, _⟩ => show q.val = (t.val % 8) * 1024 + q.val % 1024; omega)
          refine (s1_B_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := (fun h => h2 ((hcond0_2 t).mp h))) (hc3 := (fun h => h3 ((hcond0_3 t).mp h))) (y := ix2 (0 : Fin 1) q) (x := ix2 (0 : Fin 1) (⟨q.val % 1024, Nat.mod_lt _ (by norm_num)⟩ : Fin 1024)) (hx := hx)).trans ?_
          refine (pay2_apply _ _ (⟨q.val % 1024, Nat.mod_lt _ (by norm_num)⟩ : Fin 1024)).trans ?_
          exact congrArg₂ min (ld_unit_apply _ _ _ (ix2 (0 : Fin 1) q) hx) (pay10_apply _ _ _)
        · rw [if_neg hq]
          exact s1_B_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := (fun h => h2 ((hcond0_2 t).mp h))) (hc3 := (fun h => h3 ((hcond0_3 t).mp h))) (y := ix2 (0 : Fin 1) q) (a := 1) (ha := (by
            rw [off1_eq t]
            show q.val < (t.val % 8) * 1024 ∨ (t.val % 8) * 1024 + 1024 ≤ q.val
            omega))

/-- The row results after point `t`. -/
theorem E0 (t : Fin cfg0.N) (p : Fin 8192) :
    (outsAt0 m c t.val t.isLt).2.2.1 (ix2 (0 : Fin 1) p)
      = if t.val % 64 = 0 then ⊤
        else if t.val % 8 = 7 ∧ p.val / 1024 = (t.val / 8) % 8 then
          (outsAt0 m c t.val t.isLt).2.2.2.2 (ix2 (⟨p.val % 1024, Nat.mod_lt _ (by norm_num)⟩ : Fin 1024) (0 : Fin 1))
        else (outsAt0 m c (t.val - 1) (Nat.lt_of_le_of_lt (Nat.sub_le _ _) t.isLt)).2.2.1 (ix2 (0 : Fin 1) p) := by
  have hN : t.val < 256 := lt_of_lt_of_eq t.isLt (show cfg0.N = 256 from N_0)
  by_cases h0 : t.val % 64 = 0
  · have h1 : t.val % 8 = 0 := by omega
    have h2 : ¬ t.val % 8 = 7 := by omega
    have h3 : ¬ t.val % 64 = 63 := by omega
    rw [outsAt0_A m c t h0 h1 h2 h3]
    dsimp only
    rw [if_pos h0]
    exact (congrFun (s0_A (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t)  (hc0 := ((hcond0_0 t).mpr h0)) (hc1 := ((hcond0_1 t).mpr h1)) (hc2 := (fun h => h2 ((hcond0_2 t).mp h))) (hc3 := (fun h => h3 ((hcond0_3 t).mp h)))) _).trans (pay6_apply _)
  · by_cases h1 : t.val % 8 = 0
    · have h2 : ¬ t.val % 8 = 7 := by omega
      have h3 : ¬ t.val % 64 = 63 := by omega
      rw [outsAt0_D m c t h0 h1 h2 h3]
      dsimp only
      rw [if_neg h0, if_neg (fun h => h2 h.1)]
      rfl
    · by_cases h2 : t.val % 8 = 7
      · by_cases h3 : t.val % 64 = 63
        · rw [outsAt0_E m c t h0 h1 h2 h3]
          dsimp only
          rw [if_neg h0]
          by_cases hp : p.val / 1024 = (t.val / 8) % 8
          · rw [if_pos ⟨h2, hp⟩]
            have hx : ∀ a, ((ix2 (0 : Fin 1) p : S1x8192.Idx) a).val = k0_off2 (grid0.coords t) a + ((ix2 (0 : Fin 1) (⟨p.val % 1024, Nat.mod_lt _ (by norm_num)⟩ : Fin 1024) : S1x1024.Idx) a).val := (fun a => by
              rw [off2_eq t]
              match a with
              | ⟨0, _⟩ => rfl
              | ⟨1, _⟩ => show p.val = ((t.val / 8) % 8) * 1024 + p.val % 1024; omega)
            refine (s0_E_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3)) (y := ix2 (0 : Fin 1) p) (x := ix2 (0 : Fin 1) (⟨p.val % 1024, Nat.mod_lt _ (by norm_num)⟩ : Fin 1024)) (hx := hx)).trans ?_
            refine (pay3_apply _ (⟨p.val % 1024, Nat.mod_lt _ (by norm_num)⟩ : Fin 1024)).trans ?_
            exact (congrFun (s2_E (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3))) (ix2 (⟨p.val % 1024, Nat.mod_lt _ (by norm_num)⟩ : Fin 1024) (0 : Fin 1))).symm
          · rw [if_neg (fun h => hp h.2)]
            exact s0_E_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3)) (y := ix2 (0 : Fin 1) p) (a := 1) (ha := (by
              rw [off2_eq t]
              show p.val < ((t.val / 8) % 8) * 1024 ∨ ((t.val / 8) % 8) * 1024 + 1024 ≤ p.val
              omega))
        · rw [outsAt0_C m c t h0 h1 h2 h3]
          dsimp only
          rw [if_neg h0]
          by_cases hp : p.val / 1024 = (t.val / 8) % 8
          · rw [if_pos ⟨h2, hp⟩]
            have hx : ∀ a, ((ix2 (0 : Fin 1) p : S1x8192.Idx) a).val = k0_off2 (grid0.coords t) a + ((ix2 (0 : Fin 1) (⟨p.val % 1024, Nat.mod_lt _ (by norm_num)⟩ : Fin 1024) : S1x1024.Idx) a).val := (fun a => by
              rw [off2_eq t]
              match a with
              | ⟨0, _⟩ => rfl
              | ⟨1, _⟩ => show p.val = ((t.val / 8) % 8) * 1024 + p.val % 1024; omega)
            refine (s0_C_mem (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h))) (y := ix2 (0 : Fin 1) p) (x := ix2 (0 : Fin 1) (⟨p.val % 1024, Nat.mod_lt _ (by norm_num)⟩ : Fin 1024)) (hx := hx)).trans ?_
            refine (pay3_apply _ (⟨p.val % 1024, Nat.mod_lt _ (by norm_num)⟩ : Fin 1024)).trans ?_
            exact (congrFun (s2_C (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h)))) (ix2 (⟨p.val % 1024, Nat.mod_lt _ (by norm_num)⟩ : Fin 1024) (0 : Fin 1))).symm
          · rw [if_neg (fun h => hp h.2)]
            exact s0_C_out (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := (fun h => h3 ((hcond0_3 t).mp h))) (y := ix2 (0 : Fin 1) p) (a := 1) (ha := (by
              rw [off2_eq t]
              show p.val < ((t.val / 8) % 8) * 1024 ∨ ((t.val / 8) % 8) * 1024 + 1024 ≤ p.val
              omega))
      · have h3 : ¬ t.val % 64 = 63 := by omega
        rw [outsAt0_B m c t h0 h1 h2 h3]
        dsimp only
        rw [if_neg h0, if_neg (fun h => h2 h.1)]
        rfl

/-- At the last point of a batch the first output block is the row results, -/
theorem O2 (t : Fin cfg0.N) (h3 : t.val % 64 = 63) (p : Fin 8192) :
    (outsAt0 m c t.val t.isLt).1 (ix3 (0 : Fin 1) (0 : Fin 1) p) = (outsAt0 m c t.val t.isLt).2.2.1 (ix2 (0 : Fin 1) p) := by
  have h0 : ¬ t.val % 64 = 0 := by omega
  have h1 : ¬ t.val % 8 = 0 := by omega
  have h2 : t.val % 8 = 7 := by omega
  rw [outsAt0_E m c t h0 h1 h2 h3]
  dsimp only
  refine (congrFun (o2_E (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3))) _).trans ?_
  exact pay4_apply _ p

/-- and the second the column minima. -/
theorem O3 (t : Fin cfg0.N) (h3 : t.val % 64 = 63) (q : Fin 8192) :
    (outsAt0 m c t.val t.isLt).2.1 (ix3 (0 : Fin 1) (0 : Fin 1) q) = (outsAt0 m c t.val t.isLt).2.2.2.1 (ix2 (0 : Fin 1) q) := by
  have h0 : ¬ t.val % 64 = 0 := by omega
  have h1 : ¬ t.val % 8 = 0 := by omega
  have h2 : t.val % 8 = 7 := by omega
  rw [outsAt0_E m c t h0 h1 h2 h3]
  dsimp only
  refine (congrFun (o3_E (c := c) (i := grid0.coords t) (arg3 := ms0_0 t) (harg3 := hs0_0 t) (arg4 := ms0_1 t) (harg4 := hs0_1 t) (arg5 := ms0_2 t) (harg5 := hs0_2 t) (arg6 := ms0_3 t) (harg6 := hs0_3 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (xs0 := (outsAt0 m c (t.val - 1) (Nat.lt_of_le_of_lt (Nat.sub_le _ _) t.isLt)).2.2.1) (xs1 := (outsAt0 m c (t.val - 1) (Nat.lt_of_le_of_lt (Nat.sub_le _ _) t.isLt)).2.2.2.1) (xs2 := (outsAt0 m c (t.val - 1) (Nat.lt_of_le_of_lt (Nat.sub_le _ _) t.isLt)).2.2.2.2) (hc0 := (fun h => h0 ((hcond0_0 t).mp h))) (hc1 := (fun h => h1 ((hcond0_1 t).mp h))) (hc2 := ((hcond0_2 t).mpr h2)) (hc3 := ((hcond0_3 t).mpr h3))) _).trans ?_
  exact pay5_apply _ q

/-- The table's entry at `(r, cc)` is the squared distance between point `ni·1024 + r` of the first cloud and point
    `mi·1024 + cc` of the second, in the point's batch. -/
theorem tile_dist (t : Fin cfg0.N) (r cc : Fin 1024) :
    k0_pay9 (F := Ideal) (iblk m c 0 t) (iblk m c 1 t) (ix2 r cc)
      = Chamfer.dist (m ((c.tc : Thread nD τ).loc main_arg0)) (m ((c.tc : Thread nD τ).loc main_arg1))
          (⟨t.val / 64, by have := t_lt t; omega⟩ : Fin 4)
          (⟨((t.val / 8) % 8) * 1024 + r.val, by have := r.isLt; omega⟩ : Fin 8192)
          (⟨(t.val % 8) * 1024 + cc.val, by have := cc.isLt; omega⟩ : Fin 8192) := by
  refine (pay9_apply (iblk m c 0 t) (iblk m c 1 t) r cc).trans ?_
  unfold Chamfer.dist Chamfer.pt
  congr 1
  · funext d; exact iblk0_apply m c t r d
  · funext d; exact iblk1_apply m c t d cc

end Chamfer.KStep
end
-- ==== Proof.KInv.lean ====
/-
  The three running buffers of the kernel, read as functions of the grid point's number, obey the sweep's update
  equations with the table of squared distances of the two argument clouds; so, by the arithmetic of the sweep, at the
  last point of every batch the two output blocks hold, for every point of one cloud, the least squared distance to
  the other cloud.
-/
import proofs.«104449_j73160472920067_2_alg».proof.Proof.Spec
import proofs.«104449_j73160472920067_2_alg».proof.Proof.KScan
import proofs.«104449_j73160472920067_2_alg».proof.Proof.KStep

noncomputable section

namespace Chamfer.KInv

open Idealize.ShloMosaic Idealize.ShloMosaic.TcCoe Idealize.SL.Sem Idealize.ShloMosaic.ValueIdx
open Cert.KernelIdeal Cert.KernelIdeal.Gen
open Chamfer.KBlocks Chamfer.KStep

variable (m : (ℓ : Loc nD τ sig) → Buf (Elt Ideal) ℓ) (c : Dev nD)

/-- The running row minima after point `n` (`+∞` past the grid). -/
def S2 (n : ℕ) (r : Fin 1024) : EReal :=
  if h : n < cfg0.N then (outsAt0 m c n h).2.2.2.2 (ix2 r (0 : Fin 1)) else ⊤
/-- The running column minima after point `n`. -/
def S1 (n : ℕ) (q : Fin 8192) : EReal :=
  if h : n < cfg0.N then (outsAt0 m c n h).2.2.2.1 (ix2 (0 : Fin 1) q) else ⊤
/-- The row results after point `n`. -/
def S0 (n : ℕ) (p : Fin 8192) : EReal :=
  if h : n < cfg0.N then (outsAt0 m c n h).2.2.1 (ix2 (0 : Fin 1) p) else ⊤

theorem pred_lt (t : Fin cfg0.N) : t.val - 1 < cfg0.N := Nat.lt_of_le_of_lt (Nat.sub_le _ _) t.isLt

theorem step2 (t : Fin cfg0.N) (r : Fin 1024) :
    S2 m c t.val r = min (if t.val % 8 = 0 then ⊤ else S2 m c (t.val - 1) r)
      (⨅ cc : Fin 1024, Chamfer.dist (m ((c.tc : Thread nD τ).loc main_arg0)) (m ((c.tc : Thread nD τ).loc main_arg1))
        (⟨t.val / 64, by have := t_lt t; omega⟩ : Fin 4)
        (⟨(t.val / 8) % 8 * 1024 + r.val, by have := r.isLt; omega⟩ : Fin 8192)
        (⟨t.val % 8 * 1024 + cc.val, by have := cc.isLt; omega⟩ : Fin 8192)) := by
  unfold S2
  simp only [dif_pos t.isLt, dif_pos (pred_lt t)]
  refine (E2 m c t r).trans ?_
  congr 1
  exact iInf_congr fun cc => tile_dist m c t r cc

theorem step1 (t : Fin cfg0.N) (q : Fin 8192) :
    S1 m c t.val q = if q.val / 1024 = t.val % 8 then
        min (if t.val % 64 = 0 then ⊤ else S1 m c (t.val - 1) q)
          (⨅ r : Fin 1024, Chamfer.dist (m ((c.tc : Thread nD τ).loc main_arg0)) (m ((c.tc : Thread nD τ).loc main_arg1))
            (⟨t.val / 64, by have := t_lt t; omega⟩ : Fin 4)
            (⟨(t.val / 8) % 8 * 1024 + r.val, by have := r.isLt; omega⟩ : Fin 8192) q)
      else (if t.val % 64 = 0 then ⊤ else S1 m c (t.val - 1) q) := by
  unfold S1
  simp only [dif_pos t.isLt, dif_pos (pred_lt t)]
  refine (E1 m c t q).trans ?_
  by_cases hq : q.val / 1024 = t.val % 8
  · rw [if_pos hq, if_pos hq]
    congr 1
    refine iInf_congr fun r => ?_
    refine (tile_dist m c t r _).trans ?_
    congr 1
    exact Fin.ext (by show t.val % 8 * 1024 + q.val % 1024 = q.val; omega)
  · rw [if_neg hq, if_neg hq]

theorem step0 (t : Fin cfg0.N) (p : Fin 8192) :
    S0 m c t.val p = if t.val % 64 = 0 then ⊤
      else if t.val % 8 = 7 ∧ p.val / 1024 = (t.val / 8) % 8 then
        S2 m c t.val (⟨p.val % 1024, Nat.mod_lt _ (by norm_num)⟩ : Fin 1024)
      else S0 m c (t.val - 1) p := by
  unfold S0 S2
  simp only [dif_pos t.isLt, dif_pos (pred_lt t)]
  exact E0 m c t p

theorem lt_N {n : ℕ} (hn : n < 256) : n < cfg0.N := lt_of_lt_of_eq hn (show cfg0.N = 256 from N_0).symm

/-- At the last point of a batch the row results are the least squared distances to the second cloud, and the
    column minima the least squared distances to the first. -/
theorem last (t : Fin cfg0.N) (h63 : t.val % 64 = 63) :
    (∀ p : Fin 8192, S0 m c t.val p = ⨅ q : Fin 8192, Chamfer.dist (m ((c.tc : Thread nD τ).loc main_arg0)) (m ((c.tc : Thread nD τ).loc main_arg1)) (⟨t.val / 64, by have := t_lt t; omega⟩ : Fin 4) p q)
    ∧ (∀ q : Fin 8192, S1 m c t.val q = ⨅ p : Fin 8192, Chamfer.dist (m ((c.tc : Thread nD τ).loc main_arg0)) (m ((c.tc : Thread nD τ).loc main_arg1)) (⟨t.val / 64, by have := t_lt t; omega⟩ : Fin 4) p q) :=
  Chamfer.Scan.scan (Chamfer.dist (m ((c.tc : Thread nD τ).loc main_arg0)) (m ((c.tc : Thread nD τ).loc main_arg1))) (S2 m c) (S1 m c) (S0 m c)
    (fun n hn r => step2 m c ⟨n, lt_N hn⟩ r) (fun n hn q => step1 m c ⟨n, lt_N hn⟩ q) (fun n hn p => step0 m c ⟨n, lt_N hn⟩ p)
    t.val (t_lt t) h63

/-- The first output block at a batch's last point. -/
theorem last2 (t : Fin cfg0.N) (h63 : t.val % 64 = 63) (p : Fin 8192) :
    (outsAt0 m c t.val t.isLt).1 (ix3 (0 : Fin 1) (0 : Fin 1) p)
      = Chamfer.D12 (m ((c.tc : Thread nD τ).loc main_arg0)) (m ((c.tc : Thread nD τ).loc main_arg1)) (ix2 (⟨t.val / 64, by have := lt_of_lt_of_eq t.isLt (show cfg0.N = 256 from N_0); omega⟩ : Fin 4) p) := by
  rw [O2 m c t h63 p]
  have s := (last m c t h63).1 p
  unfold S0 at s
  rw [dif_pos t.isLt] at s
  exact s

/-- The second output block at a batch's last point. -/
theorem last3 (t : Fin cfg0.N) (h63 : t.val % 64 = 63) (q : Fin 8192) :
    (outsAt0 m c t.val t.isLt).2.1 (ix3 (0 : Fin 1) (0 : Fin 1) q)
      = Chamfer.D21 (m ((c.tc : Thread nD τ).loc main_arg0)) (m ((c.tc : Thread nD τ).loc main_arg1)) (ix2 (⟨t.val / 64, by have := lt_of_lt_of_eq t.isLt (show cfg0.N = 256 from N_0); omega⟩ : Fin 4) q) := by
  rw [O3 m c t h63 q]
  have s := (last m c t h63).2 q
  unfold S1 at s
  rw [dif_pos t.isLt] at s
  exact s

end Chamfer.KInv
end
-- ==== Proof.KFinal.lean ====
/-
  The kernel's two result arrays, f32[4, 1, 8192] each, after the run. Each is written back in blocks [1, 1, 8192]:
  block (b, 0, 0) at the last grid point of batch b, the points t with t % 64 = 63 (b = t / 64), and at no other
  point. So if what the body leaves in the first output's block at the last point of batch b is, at lane p, the least
  squared distance `D12` of batch b at point p — and likewise `D21` for the second — then the four blocks, which
  tile the array, make the whole array hold `D12` (`D21`) at (b, 0, p).
-/
import proofs.«104449_j73160472920067_2_alg».proof.Proof.Spec
import proofs.«104449_j73160472920067_2_alg».proof.Proof.Gen.KernelIdeal.Frame
import Idealize.ShloMosaic.Lib.Pipeline.Value
import Idealize.ShloMosaic.Lib.ValueIdx

set_option maxRecDepth 16384

noncomputable section

namespace Chamfer.KFinal

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (c : Dev nD)

/-! ## The blocks -/

/-- A block [1, 1, 8192] has one index per lane. -/
theorem idx_block (y : S1x1x8192.Idx) : y = ix3 (0 : Fin 1) (0 : Fin 1) (y 2) := by
  funext a; apply Fin.ext
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => rfl

/-- The block index of the first output at grid point t is (t / 64, 0, 0), -/
theorem idx2 : ∀ t : Fin cfg0.N,
    win0_2.index t (0 : Fin 3) = t.val / 64 ∧ win0_2.index t (1 : Fin 3) = 0 ∧ win0_2.index t (2 : Fin 3) = 0 :=
  (by decide +kernel : ∀ t : Fin grid0.N,
    win0_2.index t (0 : Fin 3) = t.val / 64 ∧ win0_2.index t (1 : Fin 3) = 0 ∧ win0_2.index t (2 : Fin 3) = 0)

/-- and so is the second's. -/
theorem idx3 : ∀ t : Fin cfg0.N,
    win0_3.index t (0 : Fin 3) = t.val / 64 ∧ win0_3.index t (1 : Fin 3) = 0 ∧ win0_3.index t (2 : Fin 3) = 0 :=
  (by decide +kernel : ∀ t : Fin grid0.N,
    win0_3.index t (0 : Fin 3) = t.val / 64 ∧ win0_3.index t (1 : Fin 3) = 0 ∧ win0_3.index t (2 : Fin 3) = 0)

/-- An array read through the first output's block at a point of block index (b, 0, 0): lane p of the block is the
    array at (b, 0, p). -/
theorem blk2_read (t : Fin cfg0.N) (b : ℕ) (hb : b < 4) (e0 : win0_2.index t (0 : Fin 3) = b)
    (e1 : win0_2.index t (1 : Fin 3) = 0) (e2 : win0_2.index t (2 : Fin 3) = 0) (G : S4x1x8192.Idx → EReal)
    (y : S1x1x8192.Idx) :
    ((cfg0.win 2).blk t).view.read (Elt Ideal) G y = G (ix3 (⟨b, hb⟩ : Fin 4) (0 : Fin 1) (y 2)) := by
  show G (((cfg0.win 2).blk t).view.emb y) = _
  refine congrArg G (funext fun a => Fin.ext ?_)
  have h0 : (y 0).val < 1 := (y 0).isLt
  have h1 : (y 1).val < 1 := (y 1).isLt
  match a with
  | ⟨0, _⟩ => show win0_2.index t (0 : Fin 3) * 1 + 1 * (y 0).val = b; omega
  | ⟨1, _⟩ => show win0_2.index t (1 : Fin 3) * 1 + 1 * (y 1).val = 0; omega
  | ⟨2, _⟩ => show win0_2.index t (2 : Fin 3) * 8192 + 1 * (y 2).val = (y 2).val; omega

theorem blk3_read (t : Fin cfg0.N) (b : ℕ) (hb : b < 4) (e0 : win0_3.index t (0 : Fin 3) = b)
    (e1 : win0_3.index t (1 : Fin 3) = 0) (e2 : win0_3.index t (2 : Fin 3) = 0) (G : S4x1x8192.Idx → EReal)
    (y : S1x1x8192.Idx) :
    ((cfg0.win 3).blk t).view.read (Elt Ideal) G y = G (ix3 (⟨b, hb⟩ : Fin 4) (0 : Fin 1) (y 2)) := by
  show G (((cfg0.win 3).blk t).view.emb y) = _
  refine congrArg G (funext fun a => Fin.ext ?_)
  have h0 : (y 0).val < 1 := (y 0).isLt
  have h1 : (y 1).val < 1 := (y 1).isLt
  match a with
  | ⟨0, _⟩ => show win0_3.index t (0 : Fin 3) * 1 + 1 * (y 0).val = b; omega
  | ⟨1, _⟩ => show win0_3.index t (1 : Fin 3) * 1 + 1 * (y 1).val = 0; omega
  | ⟨2, _⟩ => show win0_3.index t (2 : Fin 3) * 8192 + 1 * (y 2).val = (y 2).val; omega

/-! ## What a batch's last point writes back -/

/-- The first output's write-back at the last point of batch t / 64 is block (t / 64, 0, 0) of `D12` laid out as
    [4, 1, 8192]. -/
theorem flushed2_eq
    (H2 : ∀ (t : Fin cfg0.N), t.val % 64 = 63 → ∀ p : Fin 8192,
      (outsAt0 m c t.val t.isLt).1 (ix3 (0 : Fin 1) (0 : Fin 1) p)
        = Chamfer.D12 (m ((c.tc : Thread nD τ).loc main_arg0)) (m ((c.tc : Thread nD τ).loc main_arg1))
            (ix2 (⟨t.val / 64, by have := lt_of_lt_of_eq t.isLt (show cfg0.N = 256 from N_0); omega⟩ : Fin 4) p))
    (t : Fin cfg0.N) (hf : (cfg0.win 2).flush t = true) :
    (dats m 0 c).flushed 2 t = ((cfg0.win 2).blk t).view.read (Elt Ideal)
      (fun i : S4x1x8192.Idx =>
        Chamfer.D12 (m ((c.tc : Thread nD τ).loc main_arg0)) (m ((c.tc : Thread nD τ).loc main_arg1)) (ix2 (i 0) (i 2))) := by
  have h63 : t.val % 64 = 63 := (flush0_2 t).mp hf
  have hN : t.val < 256 := lt_of_lt_of_eq t.isLt (show cfg0.N = 256 from N_0)
  obtain ⟨e0, e1, e2⟩ := idx2 t
  show (cfg0.win 2).cut (grid0.coords t) ((dats m 0 c).after 2 t) = _
  rw [after0_2]
  funext y
  refine Eq.trans ?_ (blk2_read t (t.val / 64) (by omega) e0 e1 e2 _ y).symm
  exact (congrArg (outsAt0 m c t.val t.isLt).1 (idx_block y)).trans (H2 t h63 (y 2))

/-- The second output's write-back at the last point of batch t / 64 is block (t / 64, 0, 0) of `D21`. -/
theorem flushed3_eq
    (H3 : ∀ (t : Fin cfg0.N), t.val % 64 = 63 → ∀ p : Fin 8192,
      (outsAt0 m c t.val t.isLt).2.1 (ix3 (0 : Fin 1) (0 : Fin 1) p)
        = Chamfer.D21 (m ((c.tc : Thread nD τ).loc main_arg0)) (m ((c.tc : Thread nD τ).loc main_arg1))
            (ix2 (⟨t.val / 64, by have := lt_of_lt_of_eq t.isLt (show cfg0.N = 256 from N_0); omega⟩ : Fin 4) p))
    (t : Fin cfg0.N) (hf : (cfg0.win 3).flush t = true) :
    (dats m 0 c).flushed 3 t = ((cfg0.win 3).blk t).view.read (Elt Ideal)
      (fun i : S4x1x8192.Idx =>
        Chamfer.D21 (m ((c.tc : Thread nD τ).loc main_arg0)) (m ((c.tc : Thread nD τ).loc main_arg1)) (ix2 (i 0) (i 2))) := by
  have h63 : t.val % 64 = 63 := (flush0_3 t).mp hf
  have hN : t.val < 256 := lt_of_lt_of_eq t.isLt (show cfg0.N = 256 from N_0)
  obtain ⟨e0, e1, e2⟩ := idx3 t
  show (cfg0.win 3).cut (grid0.coords t) ((dats m 0 c).after 3 t) = _
  rw [after0_3]
  funext y
  refine Eq.trans ?_ (blk3_read t (t.val / 64) (by omega) e0 e1 e2 _ y).symm
  exact (congrArg (outsAt0 m c t.val t.isLt).2.1 (idx_block y)).trans (H3 t h63 (y 2))

/-! ## The four blocks tile the array -/

/-- Index (b, 0, p) of the first output's array lies in the block written back at the last point of batch b. -/
theorem cover2 (i : S4x1x8192.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 8192 := (i 2).isLt
  obtain ⟨t, ht⟩ : ∃ t : Fin cfg0.N, t.val = 64 * (i 0).val + 63 :=
    ⟨⟨64 * (i 0).val + 63, by rw [show cfg0.N = 256 from N_0]; omega⟩, rfl⟩
  obtain ⟨e0, e1, e2⟩ := idx2 t
  refine ⟨t, (flush0_2 t).mpr (by omega), ?_⟩
  show i ∈ ((View.whole main_v1_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 8192 ≤ (i 2).val ∧ (i 2).val < win0_2.index t (2 : Fin 3) * 8192 + 8192
    omega

/-- The same of the second output's array. -/
theorem cover3 (i : S4x1x8192.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  obtain ⟨t, ht⟩ : ∃ t : Fin cfg0.N, t.val = 64 * (i 0).val + 63 :=
    ⟨⟨64 * (i 0).val + 63, by rw [show cfg0.N = 256 from N_0]; omega⟩, rfl⟩
  obtain ⟨e0, e1, e2⟩ := idx3 t
  refine ⟨t, (flush0_3 t).mpr (by omega), ?_⟩
  show i ∈ ((View.whole main_v1_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 8192 ≤ (i 2).val ∧ (i 2).val < win0_3.index t (2 : Fin 3) * 8192 + 8192
    omega

/-! ## The arrays after the run -/

/-- If the body leaves `D12` of batch t / 64 in the first output's block at the last point of every batch, the first
    result array ends holding `D12` at (b, 0, p). -/
theorem final2
    (H2 : ∀ (t : Fin cfg0.N), t.val % 64 = 63 → ∀ p : Fin 8192,
      (outsAt0 m c t.val t.isLt).1 (ix3 (0 : Fin 1) (0 : Fin 1) p)
        = Chamfer.D12 (m ((c.tc : Thread nD τ).loc main_arg0)) (m ((c.tc : Thread nD τ).loc main_arg1))
            (ix2 (⟨t.val / 64, by have := lt_of_lt_of_eq t.isLt (show cfg0.N = 256 from N_0); omega⟩ : Fin 4) p)) :
    (dats m 0 c).arrAt 2 cfg0.N = fun i : S4x1x8192.Idx =>
      Chamfer.D12 (m ((c.tc : Thread nD τ).loc main_arg0)) (m ((c.tc : Thread nD τ).loc main_arg1)) (ix2 (i 0) (i 2)) :=
  (dats m 0 c).arrAt_eq_of_cover 2 _ (fun t hf => flushed2_eq m c H2 t hf) cover2

/-- If the body leaves `D21` of batch t / 64 in the second output's block at the last point of every batch, the second
    result array ends holding `D21` at (b, 0, p). -/
theorem final3
    (H3 : ∀ (t : Fin cfg0.N), t.val % 64 = 63 → ∀ p : Fin 8192,
      (outsAt0 m c t.val t.isLt).2.1 (ix3 (0 : Fin 1) (0 : Fin 1) p)
        = Chamfer.D21 (m ((c.tc : Thread nD τ).loc main_arg0)) (m ((c.tc : Thread nD τ).loc main_arg1))
            (ix2 (⟨t.val / 64, by have := lt_of_lt_of_eq t.isLt (show cfg0.N = 256 from N_0); omega⟩ : Fin 4) p)) :
    (dats m 0 c).arrAt 3 cfg0.N = fun i : S4x1x8192.Idx =>
      Chamfer.D21 (m ((c.tc : Thread nD τ).loc main_arg0)) (m ((c.tc : Thread nD τ).loc main_arg1)) (ix2 (i 0) (i 2)) :=
  (dats m 0 c).arrAt_eq_of_cover 3 _ (fun t hf => flushed3_eq m c H3 t hf) cover3

end Chamfer.KFinal

end
-- ==== Proof.KTail.lean ====
/-
  What the program returns. After the grid has run, the two arrays of minima, one per point of each cloud and batch,
  are each read without their unit axis, summed over both axes from zero and divided by 32768, the number of
  their entries; the result is the sum of the two means. This is stated for the array the run ends with, together
  with the two clouds being left as they were.
-/
import proofs.«104449_j73160472920067_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Chamfer.KTail

open Idealize.ShloMosaic Idealize.ShloMosaic.TcCoe Idealize.SL.Sem
open Cert.KernelIdeal Cert.KernelIdeal.Gen Idealize.ShloMosaic.ValueIdx

variable {F : FTy → Type} [FloatOps F] (m : (ℓ : Loc nD τ sig) → Buf (Elt F) ℓ) (ρ : Dev nD → PrngReg)

/-! ## A unit middle axis dropped -/

/-- A `[4, 1, 8192]` array read as `[4, 8192]`: the entry at `(b, n)` is the array's entry at `(b, 0, n)`. -/
theorem reshape_apply (X : S4x1x8192.Idx → Elt F .f32) (b : Fin 4) (n : Fin 8192) :
    shapeCast S4x8192 X shapeCasts_S4x1x8192_S4x8192 (ix2 b n) = X (ix3 b (0 : Fin 1) n) :=
  shapeCast_apply X shapeCasts_S4x1x8192_S4x8192 (ix2 b n) (ix3 b (0 : Fin 1) n) (by
    rw [Shape.rowMajor_val_three, Shape.rowMajor_val_two]
    show (b.val * 1 + 0) * 8192 + n.val = b.val * 8192 + n.val
    rw [Nat.mul_one, Nat.add_zero])

/-! ## The returned scalar -/

/-- The scalar the program ends with, from the two arrays of minima the grid leaves: the mean of the one plus the
    mean of the other. -/
theorem tail_eq (c : Dev nD) :
    Pipeline.afterTail₀ cfgs (dats m) 0 (V0 m) [hostOps1] c main_v8
      = addf
          (Host.divf
            (Host.reduceAdd (shapeCast S4x8192 ((dats m 0 c).arrAt 2 cfg0.N) shapeCasts_S4x1x8192_S4x8192)
              (constant S_ .f32 0x00000000#32) reducesTo_S4x8192_S_d0_1 h_S_)
            (constant S_ .f32 0x47000000#32))
          (Host.divf
            (Host.reduceAdd (shapeCast S4x8192 ((dats m 0 c).arrAt 3 cfg0.N) shapeCasts_S4x1x8192_S4x8192)
              (constant S_ .f32 0x00000000#32) reducesTo_S4x8192_S_d0_1 h_S_)
            (constant S_ .f32 0x47000000#32)) := by
  unfold Pipeline.afterTail₀
  show StableHlo.after hostOps1 _ (Proc.devRef .tc main_v8) = _
  after_results
  have h2 : Pipeline.withArrays (cfgs 0).spec c (V0 m c) (fun w => (dats m 0 c).arrAt w (cfgs 0).N)
      (Proc.devRef .tc main_v1_0) = (dats m 0 c).arrAt 2 cfg0.N :=
    Pipeline.withArrays_arr spec0 launch0.win.arr_inj c _ _ 2
  have h3 : Pipeline.withArrays (cfgs 0).spec c (V0 m c) (fun w => (dats m 0 c).arrAt w (cfgs 0).N)
      (Proc.devRef .tc main_v1_1) = (dats m 0 c).arrAt 3 cfg0.N :=
    Pipeline.withArrays_arr spec0 launch0.win.arr_inj c _ _ 3
  rw [h2, h3]
  rfl

/-- Every run of the program ends with that scalar in the result and with both clouds as they were. -/
theorem run_result :
    θ_run defs (onTc (τ := τ) (main (F := F))) ⟨m, fun _ => 0, ρ⟩ (fun r => ∀ c : Dev nD,
      r.2.mem ((c.tc : Thread nD τ).loc main_v8)
        = addf
            (Host.divf
              (Host.reduceAdd (shapeCast S4x8192 ((dats m 0 c).arrAt 2 cfg0.N) shapeCasts_S4x1x8192_S4x8192)
                (constant S_ .f32 0x00000000#32) reducesTo_S4x8192_S_d0_1 h_S_)
              (constant S_ .f32 0x47000000#32))
            (Host.divf
              (Host.reduceAdd (shapeCast S4x8192 ((dats m 0 c).arrAt 3 cfg0.N) shapeCasts_S4x1x8192_S4x8192)
                (constant S_ .f32 0x00000000#32) reducesTo_S4x8192_S_d0_1 h_S_)
              (constant S_ .f32 0x47000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m c),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Chamfer.KTail

end
-- ==== Proof.KRun.lean ====
/-
  The kernel's run, read: its scalar result is the mean over all 4 · 8192 points of the first cloud of the least squared
  distance to the second cloud, plus the same mean with the clouds exchanged — the two result arrays of the region are
  the two arrays of least squared distances, and the operations after the region reshape, sum and divide them.
-/
import proofs.«104449_j73160472920067_2_alg».proof.Proof.Spec
import proofs.«104449_j73160472920067_2_alg».proof.Proof.KInv
import proofs.«104449_j73160472920067_2_alg».proof.Proof.KFinal
import proofs.«104449_j73160472920067_2_alg».proof.Proof.KTail

noncomputable section

namespace Chamfer.KRun

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The mean of the least squared distances from the first cloud to the second, plus the mean of those from the
    second to the first: each a sum over both axes from zero, divided by 32768. -/
abbrev result (p1 p2 : S4x8192x3.Idx → EReal) : FVec Ideal S_ .f32 :=
  addf
    (Host.divf (F := Ideal)
      (Host.reduceAdd (F := Ideal) (Chamfer.D12 p1 p2) (constant (F := Ideal) S_ .f32 0x00000000#32) reducesTo_S4x8192_S_d0_1 h_S_)
      (constant (F := Ideal) S_ .f32 0x47000000#32))
    (Host.divf (F := Ideal)
      (Host.reduceAdd (F := Ideal) (Chamfer.D21 p1 p2) (constant (F := Ideal) S_ .f32 0x00000000#32) reducesTo_S4x8192_S_d0_1 h_S_)
      (constant (F := Ideal) S_ .f32 0x47000000#32))

/-- Dropping the unit middle axis of an array that does not depend on it. -/
theorem reshape_drop (G : S4x8192.Idx → EReal) :
    shapeCast S4x8192 (fun i : S4x1x8192.Idx => G (ix2 (i 0) (i 2))) shapeCasts_S4x1x8192_S4x8192 = G := by
  funext j
  obtain ⟨b, n, rfl⟩ : ∃ (b : Fin 4) (n : Fin 8192), j = ix2 b n := ⟨j 0, j 1, eq_ix2 j⟩
  exact Chamfer.KTail.reshape_apply (F := Ideal) _ b n

/-- Every weakly fair execution of the idealized kernel ends with its result at `result` of the two argument arrays,
    which it leaves unchanged. -/
theorem run : θ_run defs (onTc (τ := τ) (main (F := Ideal))) ⟨m, fun _ => 0, ρ⟩ (fun r => ∀ c : Dev nD,
      r.2.mem ((c.tc : Thread nD τ).loc main_v8)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [Chamfer.KFinal.final2 m c (Chamfer.KInv.last2 m c), Chamfer.KFinal.final3 m c (Chamfer.KInv.last3 m c),
        reshape_drop (Chamfer.D12 (m ((c.tc : Thread nD τ).loc main_arg0)) (m ((c.tc : Thread nD τ).loc main_arg1))),
        reshape_drop (Chamfer.D21 (m ((c.tc : Thread nD τ).loc main_arg0)) (m ((c.tc : Thread nD τ).loc main_arg1)))]),
    (h c).2⟩) (Chamfer.KTail.run_result m ρ)

end Chamfer.KRun
end
-- ==== Proof.lean ====
/- The proof of `Cert.Claim`: the kernel and its reference compute one number of the two clouds of points — the mean,
   over the points of the first cloud, of the least squared distance to a point of the second, plus the same mean
   with the clouds exchanged. The kernel forms every squared distance as the sum of the three squared coordinate
   differences and keeps running minima over tiles of 1024 × 1024 pairs; the reference expands the square into
   |p|² − 2 p·q + |q|², clamps at zero and takes the minima over whole axes. For finite coordinates the two forms of
   the squared distance are one real number (and it is not negative, so the clamp does nothing), the minimum over
   8192 indices is the minimum of the minima over eight tiles, and both programs end with the same sums and
   quotients of the two arrays of minima. -/
import proofs.«104449_j73160472920067_2_alg».proof.Defs
import proofs.«104449_j73160472920067_2_alg».proof.Proof.Gen.Kernel
import proofs.«104449_j73160472920067_2_alg».proof.Proof.Gen.Kernel.Skeleton
import proofs.«104449_j73160472920067_2_alg».proof.Proof.Gen.Kernel.Launch
import proofs.«104449_j73160472920067_2_alg».proof.Proof.Gen.Kernel.Points
import proofs.«104449_j73160472920067_2_alg».proof.Proof.Gen.Kernel.Frame
import proofs.«104449_j73160472920067_2_alg».proof.Proof.Gen.KernelIdeal
import proofs.«104449_j73160472920067_2_alg».proof.Proof.Gen.KernelIdeal.Skeleton
import proofs.«104449_j73160472920067_2_alg».proof.Proof.Gen.KernelIdeal.Launch
import proofs.«104449_j73160472920067_2_alg».proof.Proof.Gen.KernelIdeal.Points
import proofs.«104449_j73160472920067_2_alg».proof.Proof.Gen.KernelIdeal.Frame
import proofs.«104449_j73160472920067_2_alg».proof.Proof.Gen.ReferenceIdeal
import proofs.«104449_j73160472920067_2_alg».proof.Proof.Gen.ReferenceIdeal.Run
import proofs.«104449_j73160472920067_2_alg».proof.Proof.Gen.ReferenceIdeal.Read
import proofs.«104449_j73160472920067_2_alg».proof.Proof.Gen.Pre_finite_inputs
import Idealize.ShloMosaic.Adequacy
import Idealize.ShloMosaic.Init
import proofs.«104449_j73160472920067_2_alg».proof.Proof.Spec
import proofs.«104449_j73160472920067_2_alg».proof.Proof.RefValue
import proofs.«104449_j73160472920067_2_alg».proof.Proof.KRun

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the mean of the least squared distances one way plus the mean the other way: the kernel's by
    its run read back, the reference's because under the precondition every coordinate is a real, where its expanded
    and clamped squared distance is the kernel's. -/
theorem algebraic : Cert.algebraic_KernelIdeal_ReferenceIdeal := by
  intro m ρ m' ρ' hpre hagree
  refine ⟨_, Chamfer.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Chamfer.Ref.finite_of_pre _ _ (hpre c)
  rw [(hagree c).1, (hagree c).2]
  refine (Cert.ReferenceIdeal.Read.val_main_v22_eq _ _).trans ?_
  exact Chamfer.Ref.ref_result _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
